-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S1024x8 : Shape := ⟨2, ![1024, 8]⟩
abbrev S64x768x2048 : Shape := ⟨3, ![64, 768, 2048]⟩
abbrev S64x2048x768 : Shape := ⟨3, ![64, 2048, 768]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S64x768x2048 : S_.BroadcastsInDim S64x768x2048 (![] : Fin 0 → Fin S64x768x2048.rank)
  reducesTo_S64x768x2048_S_d0_1_2 : S64x768x2048.ReducesTo [0, 1, 2] S_
  bcast_S_S64x2048x768 : S_.BroadcastsInDim S64x2048x768 (![] : Fin 0 → Fin S64x2048x768.rank)
  reducesTo_S64x2048x768_S_d0_1_2 : S64x2048x768.ReducesTo [0, 1, 2] S_

variable [Facts]

def fn_part1 {F : FTy → Type} [FloatOps F] (main_arg5 : FVec F S64x2048x768 .f32) (main_v13 : IVec S_ 1) (main_v16 : IVec S64x768x2048 1) : IVec S_ 1 :=
  let main_c_5 : IVec S_ 1 := constantI S_ 1 1#1
  let main_v17 : IVec S_ 1 := (fun x v => Host.reduce IntOp.andi x v reducesTo_S64x768x2048_S_d0_1_2 h_S_) main_v16 main_c_5
  let main_v18 : IVec S_ 1 := andi main_v13 main_v17
  let main_v19 : FVec F S64x2048x768 .f32 := Host.absf main_arg5
  let main_cst_6 : FVec F S_ .f32 := constant S_ .f32 0x7F800000#32
  let main_v20 : FVec F S64x2048x768 .f32 := broadcastInDim S64x2048x768 ![] bcast_S_S64x2048x768 main_cst_6
  let main_v21 : IVec S64x2048x768 1 := cmpf .olt main_v19 main_v20
  let main_c_7 : IVec S_ 1 := constantI S_ 1 1#1
  let main_v22 : IVec S_ 1 := (fun x v => Host.reduce IntOp.andi x v reducesTo_S64x2048x768_S_d0_1_2 h_S_) main_v21 main_c_7
  let main_v23 : IVec S_ 1 := andi main_v18 main_v22
  main_v23

def fn {F : FTy → Type} [FloatOps F] (main_arg0 : FVec F S1024x2048 .f32) (main_arg1 : FVec F S1024x8 .f32) (main_arg2 : IVec S1024x8 32) (main_arg3 : FVec F S64x768x2048 .f32) (main_arg4 : FVec F S64x768x2048 .f32) (main_arg5 : FVec F S64x2048x768 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  let main_v9 : FVec F S64x768x2048 .f32 := Host.absf main_arg3
  let main_cst_2 : FVec F S_ .f32 := constant S_ .f32 0x7F800000#32
  let main_v10 : FVec F S64x768x2048 .f32 := broadcastInDim S64x768x2048 ![] bcast_S_S64x768x2048 main_cst_2
  let main_v11 : IVec S64x768x2048 1 := cmpf .olt main_v9 main_v10
  let main_c_3 : IVec S_ 1 := constantI S_ 1 1#1
  let main_v12 : IVec S_ 1 := (fun x v => Host.reduce IntOp.andi x v reducesTo_S64x768x2048_S_d0_1_2 h_S_) main_v11 main_c_3
  let main_v13 : IVec S_ 1 := andi main_v8 main_v12
  let main_v14 : FVec F S64x768x2048 .f32 := Host.absf main_arg4
  let main_cst_4 : FVec F S_ .f32 := constant S_ .f32 0x7F800000#32
  let main_v15 : FVec F S64x768x2048 .f32 := broadcastInDim S64x768x2048 ![] bcast_S_S64x768x2048 main_cst_4
  let main_v16 : IVec S64x768x2048 1 := cmpf .olt main_v14 main_v15
  fn_part1 (F := F) main_arg5 main_v13 main_v16
-- ==== Kernel.lean ====
abbrev S1024x2048 : Shape := ⟨2, ![1024, 2048]⟩
abbrev S1024x8 : Shape := ⟨2, ![1024, 8]⟩
abbrev S64x768x2048 : Shape := ⟨3, ![64, 768, 2048]⟩
abbrev S64x2048x768 : Shape := ⟨3, ![64, 2048, 768]⟩
abbrev S8192 : Shape := ⟨1, ![8192]⟩
abbrev S1024x8x2048 : Shape := ⟨3, ![1024, 8, 2048]⟩
abbrev S8192x2048 : Shape := ⟨2, ![8192, 2048]⟩
abbrev S8192x1 : Shape := ⟨2, ![8192, 1]⟩
abbrev S1x64 : Shape := ⟨2, ![1, 64]⟩
abbrev S8192x64 : Shape := ⟨2, ![8192, 64]⟩
abbrev S_ : Shape := ⟨0, ![]⟩
abbrev S64x256x2048 : Shape := ⟨3, ![64, 256, 2048]⟩
abbrev S8192x2 : Shape := ⟨2, ![8192, 2]⟩
abbrev S1x256x2048 : Shape := ⟨3, ![1, 256, 2048]⟩
abbrev S1x768x2048 : Shape := ⟨3, ![1, 768, 2048]⟩
abbrev S1x2048x768 : Shape := ⟨3, ![1, 2048, 768]⟩
abbrev S256x2048 : Shape := ⟨2, ![256, 2048]⟩
abbrev S768x2048 : Shape := ⟨2, ![768, 2048]⟩
abbrev S2048x768 : Shape := ⟨2, ![2048, 768]⟩
abbrev S256x768 : Shape := ⟨2, ![256, 768]⟩
abbrev S1024x8x1 : Shape := ⟨3, ![1024, 8, 1]⟩

abbrev nBuf : Space → Nat
  | .hbm => 80
  | .vmem => 10
  | .smem => 0
  | _ => 0

abbrev bufTy : (tb : Table) → Fin (tcTables nBuf tb) → BufTy
  | .hbm, ⟨0, _⟩ => ⟨S1024x2048, .f32⟩
  | .hbm, ⟨1, _⟩ => ⟨S1024x8, .f32⟩
  | .hbm, ⟨2, _⟩ => ⟨S1024x8, .i32⟩
  | .hbm, ⟨3, _⟩ => ⟨S64x768x2048, .f32⟩
  | .hbm, ⟨4, _⟩ => ⟨S64x768x2048, .f32⟩
  | .hbm, ⟨5, _⟩ => ⟨S64x2048x768, .f32⟩
  | .hbm, ⟨6, _⟩ => ⟨S8192, .i32⟩
  | .hbm, ⟨7, _⟩ => ⟨S1024x8x2048, .f32⟩
  | .hbm, ⟨8, _⟩ => ⟨S8192x2048, .f32⟩
  | .hbm, ⟨9, _⟩ => ⟨S8192x1, .i32⟩
  | .hbm, ⟨10, _⟩ => ⟨S1x64, .i32⟩
  | .hbm, ⟨11, _⟩ => ⟨S8192x64, .i32⟩
  | .hbm, ⟨12, _⟩ => ⟨S8192x64, .i32⟩
  | .hbm, ⟨13, _⟩ => ⟨S8192x64, .i1⟩
  | .hbm, ⟨14, _⟩ => ⟨S8192x64, .i32⟩
  | .hbm, ⟨15, _⟩ => ⟨S_, .i32⟩
  | .hbm, ⟨16, _⟩ => ⟨S_, .i32⟩
  | .hbm, ⟨17, _⟩ => ⟨S8192x64, .i32⟩
  | .hbm, ⟨18, _⟩ => ⟨S8192x64, .i32⟩
  | .hbm, ⟨19, _⟩ => ⟨S_, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i1⟩
  | .hbm, ⟨27, _⟩ => ⟨S_, .bf16⟩
  | .hbm, ⟨28, _⟩ => ⟨S64x256x2048, .bf16⟩
  | .hbm, ⟨29, _⟩ => ⟨S8192x2048, .bf16⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S_, .i32⟩
  | .hbm, ⟨38, _⟩ => ⟨S8192, .i32⟩
  | .hbm, ⟨39, _⟩ => ⟨S8192, .i1⟩
  | .hbm, ⟨40, _⟩ => ⟨S_, .i32⟩
  | .hbm, ⟨41, _⟩ => ⟨S8192, .i32⟩
  | .hbm, ⟨42, _⟩ => ⟨S8192, .i32⟩
  | .hbm, ⟨43, _⟩ => ⟨S8192, .i32⟩
  | .hbm, ⟨44, _⟩ => ⟨S8192x1, .i32⟩
  | .hbm, ⟨45, _⟩ => ⟨S8192x1, .i32⟩
  | .hbm, ⟨46, _⟩ => ⟨S8192x2, .i32⟩
  | .hbm, ⟨47, _⟩ => ⟨S64x256x2048, .bf16⟩
  | .hbm, ⟨48, _⟩ => ⟨S64x768x2048, .bf16⟩
  | .hbm, ⟨49, _⟩ => ⟨S64x768x2048, .bf16⟩
  | .hbm, ⟨50, _⟩ => ⟨S64x2048x768, .bf16⟩
  | .hbm, ⟨51, _⟩ => ⟨S64x256x2048, .f32⟩
  | .hbm, ⟨52, _⟩ => ⟨S_, .i32⟩
  | .hbm, ⟨53, _⟩ => ⟨S8192, .i32⟩
  | .hbm, ⟨54, _⟩ => ⟨S8192, .i1⟩
  | .hbm, ⟨55, _⟩ => ⟨S_, .i32⟩
  | .hbm, ⟨56, _⟩ => ⟨S8192, .i32⟩
  | .hbm, ⟨57, _⟩ => ⟨S8192, .i32⟩
  | .hbm, ⟨58, _⟩ => ⟨S8192, .i32⟩
  | .hbm, ⟨59, _⟩ => ⟨S_, .i32⟩
  | .hbm, ⟨60, _⟩ => ⟨S8192, .i32⟩
  | .hbm, ⟨61, _⟩ => ⟨S8192, .i1⟩
  | .hbm, ⟨62, _⟩ => ⟨S_, .i32⟩
  | .hbm, ⟨63, _⟩ => ⟨S8192, .i32⟩
  | .hbm, ⟨64, _⟩ => ⟨S8192, .i32⟩
  | .hbm, ⟨65, _⟩ => ⟨S8192, .i32⟩
  | .hbm, ⟨66, _⟩ => ⟨S8192x1, .i32⟩
  | .hbm, ⟨67, _⟩ => ⟨S8192x1, .i32⟩
  | .hbm, ⟨68, _⟩ => ⟨S8192x2, .i32⟩
  | .hbm, ⟨69, _⟩ => ⟨S8192x2048, .f32⟩
  | .hbm, ⟨70, _⟩ => ⟨S8192x1, .i1⟩
  | .hbm, ⟨71, _⟩ => ⟨S8192x1, .f32⟩
  | .hbm, ⟨72, _⟩ => ⟨S8192x2048, .f32⟩
  | .hbm, ⟨73, _⟩ => ⟨S8192x2048, .f32⟩
  | .hbm, ⟨74, _⟩ => ⟨S1024x8x2048, .f32⟩
  | .hbm, ⟨75, _⟩ => ⟨S1024x8x1, .f32⟩
  | .hbm, ⟨76, _⟩ => ⟨S1024x8x2048, .f32⟩
  | .hbm, ⟨77, _⟩ => ⟨S1024x8x2048, .f32⟩
  | .hbm, ⟨78, _⟩ => ⟨S_, .f32⟩
  | .hbm, ⟨79, _⟩ => ⟨S1024x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x768x2048, .bf16⟩
  | .local _ .vmem, ⟨3, _⟩ => ⟨S1x768x2048, .bf16⟩
  | .local _ .vmem, ⟨4, _⟩ => ⟨S1x768x2048, .bf16⟩
  | .local _ .vmem, ⟨5, _⟩ => ⟨S1x768x2048, .bf16⟩
  | .local _ .vmem, ⟨6, _⟩ => ⟨S1x2048x768, .bf16⟩
  | .local _ .vmem, ⟨7, _⟩ => ⟨S1x2048x768, .bf16⟩
  | .local _ .vmem, ⟨8, _⟩ => ⟨S1x256x2048, .f32⟩
  | .local _ .vmem, ⟨9, _⟩ => ⟨S1x256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_call1_call0_c : Ref sig .tc := ⟨.hbm, 15, rfl⟩
abbrev main_call1_call0_v0 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024x8_S8192 : S1024x8.ShapeCasts S8192
  bcast_S1024x2048_S1024x8x2048_0_2 : S1024x2048.BroadcastsInDim S1024x8x2048 (![0, 2] : Fin 2 → Fin S1024x8x2048.rank)
  shapeCasts_S1024x8x2048_S8192x2048 : S1024x8x2048.ShapeCasts S8192x2048
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S1x64_S8192x64_0_1 : S1x64.BroadcastsInDim S8192x64 (![0, 1] : Fin 2 → Fin S8192x64.rank)
  natLt_1_32 : 1 < 32
  bcast_S_S_ : S_.BroadcastsInDim S_ (![] : Fin 0 → Fin S_.rank)
  reduceWindows_S8192x64_S8192x64_w8192s1p8191_0_w1s1p0_0 : S8192x64.ReduceWindows (![8192, 1] : Fin 2 → Nat) ![1, 1] ![8191, 0] ![0, 0] S8192x64
  h_S_ : 0 < S_.numel
  reducesTo_S8192x64_S8192_d1 : S8192x64.ReducesTo [1] S8192
  bcast_S_S8192 : S_.BroadcastsInDim S8192 (![] : Fin 0 → Fin S8192.rank)
  bcast_S_S64x256x2048 : S_.BroadcastsInDim S64x256x2048 (![] : Fin 0 → Fin S64x256x2048.rank)
  bitsLt_bf16_f32 : FTy.bits .bf16 < FTy.bits .f32
  concatenates_S8192x1_S8192x1_S8192x2_d1 : Shape.Concatenates [S8192x1, S8192x1] S8192x2 1
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x768x2048_S1x768x2048_0_0_0 : ∀ a, (![0, 0, 0] : Fin 3 → Nat) a + S1x768x2048.size a ≤ S1x768x2048.size a
  h_S1x768x2048 : 0 < S1x768x2048.numel
  shapeCasts_S1x768x2048_S768x2048 : S1x768x2048.ShapeCasts S768x2048
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  shapeCasts_S256x2048_S1x256x2048 : S256x2048.ShapeCasts S1x256x2048
  bcast_S8192x1_S8192x2048_0_1 : S8192x1.BroadcastsInDim S8192x2048 (![0, 1] : Fin 2 → Fin S8192x2048.rank)
  shapeCasts_S8192x2048_S1024x8x2048 : S8192x2048.ShapeCasts S1024x8x2048
  bcast_S1024x8_S1024x8x1_0_1 : S1024x8.BroadcastsInDim S1024x8x1 (![0, 1] : Fin 2 → Fin S1024x8x1.rank)
  bcast_S1024x8x1_S1024x8x2048_0_1_2 : S1024x8x1.BroadcastsInDim S1024x8x2048 (![0, 1, 2] : Fin 3 → Fin S1024x8x2048.rank)
  reducesTo_S1024x8x2048_S1024x2048_d1 : S1024x8x2048.ReducesTo [1] S1024x2048
  scatter_S64x256x2048_S8192x2_S8192x2048_1_01_01_1_wf : ScatterDims.WF S64x256x2048 S8192x2 S8192x2048 [1] [0, 1] [0, 1] 1
  dot_S256x2048_S768x2048_S256x768_1_1_0_0_n_n_wf : DotDims.WF S256x2048 S768x2048 S256x768 [1] [1] [0] [0] [] []
  dot_S256x768_S2048x768_S256x2048_1_1_0_0_n_n_wf : DotDims.WF S256x768 S2048x768 S256x2048 [1] [1] [0] [0] [] []
  gather_S64x256x2048_S8192x2_S8192x2048_1_01_n_n_01_1_112048_wf : GatherDims.WF S64x256x2048 S8192x2 S8192x2048 [1] [0, 1] [] [0, 1] [] 1 ![1, 1, 2048]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S64x256x2048.size a
  hwx0_0 : ∀ i : grid0.Coords, EltTy.bits .bf16 = 32 ∨ (Rect.block (s := S64x256x2048) S1x256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x768x2048.size a ≤ S64x768x2048.size a
  hwx0_1 : ∀ i : grid0.Coords, EltTy.bits .bf16 = 32 ∨ (Rect.block (s := S64x768x2048) S1x768x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x768x2048.size a ≤ S64x768x2048.size a
  hwx0_2 : ∀ i : grid0.Coords, EltTy.bits .bf16 = 32 ∨ (Rect.block (s := S64x768x2048) S1x768x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x768.size a ≤ S64x2048x768.size a
  hwx0_3 : ∀ i : grid0.Coords, EltTy.bits .bf16 = 32 ∨ (Rect.block (s := S64x2048x768) S1x2048x768.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S64x256x2048.size a
  hwx0_4 : ∀ i : grid0.Coords, EltTy.bits .f32 = 32 ∨ (Rect.block (s := S64x256x2048) S1x256x2048.size (cc0_transform_4 i) (hinb0_4 i)).WholeWords (EltTy.packing .f32)

variable [Facts₀]

def scatter_S64x256x2048_S8192x2_S8192x2048_1_01_01_1 : ScatterDims S64x256x2048 S8192x2 S8192x2048 where
  updateWindowDims := [1]
  insertedWindowDims := [0, 1]
  scatterDimsToOperandDims := [0, 1]
  indexVectorDim := 1
  wf := scatter_S64x256x2048_S8192x2_S8192x2048_1_01_01_1_wf
def dot_S256x2048_S768x2048_S256x768_1_1_0_0_n_n : DotDims S256x2048 S768x2048 S256x768 where
  lhsContracting := [1]
  rhsContracting := [1]
  lhsNonContracting := [0]
  rhsNonContracting := [0]
  lhsBatch := []
  rhsBatch := []
  wf := dot_S256x2048_S768x2048_S256x768_1_1_0_0_n_n_wf
def dot_S256x768_S2048x768_S256x2048_1_1_0_0_n_n : DotDims S256x768 S2048x768 S256x2048 where
  lhsContracting := [1]
  rhsContracting := [1]
  lhsNonContracting := [0]
  rhsNonContracting := [0]
  lhsBatch := []
  rhsBatch := []
  wf := dot_S256x768_S2048x768_S256x2048_1_1_0_0_n_n_wf
def gather_S64x256x2048_S8192x2_S8192x2048_1_01_n_n_01_1_112048 : GatherDims S64x256x2048 S8192x2 S8192x2048 where
  offsetDims := [1]
  collapsedSliceDims := [0, 1]
  operandBatchingDims := []
  startIndicesBatchingDims := []
  startIndexMap := [0, 1]
  indexVectorDim := 1
  sliceSizes := ![1, 1, 2048]
  wf := gather_S64x256x2048_S8192x2_S8192x2048_1_01_n_n_01_1_112048_wf

abbrev win0_0 : Pipeline.Window sig grid0 :=
  Pipeline.Window.ofSpec (Memref.whole main_v26) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1x768x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x768x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x2048x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x2048 : Shape := ⟨2, ![1024, 2048]⟩
abbrev S1024x8 : Shape := ⟨2, ![1024, 8]⟩
abbrev S64x768x2048 : Shape := ⟨3, ![64, 768, 2048]⟩
abbrev S64x2048x768 : Shape := ⟨3, ![64, 2048, 768]⟩
abbrev S8192 : Shape := ⟨1, ![8192]⟩
abbrev S1024x8x2048 : Shape := ⟨3, ![1024, 8, 2048]⟩
abbrev S8192x2048 : Shape := ⟨2, ![8192, 2048]⟩
abbrev S8192x1 : Shape := ⟨2, ![8192, 1]⟩
abbrev S1x64 : Shape := ⟨2, ![1, 64]⟩
abbrev S8192x64 : Shape := ⟨2, ![8192, 64]⟩
abbrev S_ : Shape := ⟨0, ![]⟩
abbrev S64x256x2048 : Shape := ⟨3, ![64, 256, 2048]⟩
abbrev S8192x2 : Shape := ⟨2, ![8192, 2]⟩
abbrev S64x256x768 : Shape := ⟨3, ![64, 256, 768]⟩
abbrev S1024x8x1 : Shape := ⟨3, ![1024, 8, 1]⟩

abbrev nBuf : Space → Nat
  | .hbm => 88
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x8, .f32⟩
  | .hbm, ⟨2, _⟩ => ⟨S1024x8, .i32⟩
  | .hbm, ⟨3, _⟩ => ⟨S64x768x2048, .f32⟩
  | .hbm, ⟨4, _⟩ => ⟨S64x768x2048, .f32⟩
  | .hbm, ⟨5, _⟩ => ⟨S64x2048x768, .f32⟩
  | .hbm, ⟨6, _⟩ => ⟨S8192, .i32⟩
  | .hbm, ⟨7, _⟩ => ⟨S1024x8x2048, .f32⟩
  | .hbm, ⟨8, _⟩ => ⟨S8192x2048, .f32⟩
  | .hbm, ⟨9, _⟩ => ⟨S8192x1, .i32⟩
  | .hbm, ⟨10, _⟩ => ⟨S1x64, .i32⟩
  | .hbm, ⟨11, _⟩ => ⟨S8192x64, .i32⟩
  | .hbm, ⟨12, _⟩ => ⟨S8192x64, .i32⟩
  | .hbm, ⟨13, _⟩ => ⟨S8192x64, .i1⟩
  | .hbm, ⟨14, _⟩ => ⟨S8192x64, .i32⟩
  | .hbm, ⟨15, _⟩ => ⟨S_, .i32⟩
  | .hbm, ⟨16, _⟩ => ⟨S_, .i32⟩
  | .hbm, ⟨17, _⟩ => ⟨S8192x64, .i32⟩
  | .hbm, ⟨18, _⟩ => ⟨S8192x64, .i32⟩
  | .hbm, ⟨19, _⟩ => ⟨S_, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i1⟩
  | .hbm, ⟨27, _⟩ => ⟨S_, .f32⟩
  | .hbm, ⟨28, _⟩ => ⟨S64x256x2048, .f32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .i32⟩
  | .hbm, ⟨43, _⟩ => ⟨S8192x1, .i32⟩
  | .hbm, ⟨44, _⟩ => ⟨S8192x1, .i32⟩
  | .hbm, ⟨45, _⟩ => ⟨S8192x2, .i32⟩
  | .hbm, ⟨46, _⟩ => ⟨S64x256x2048, .f32⟩
  | .hbm, ⟨47, _⟩ => ⟨S64x256x768, .f32⟩
  | .hbm, ⟨48, _⟩ => ⟨S64x256x768, .f32⟩
  | .hbm, ⟨49, _⟩ => ⟨S64x256x768, .f32⟩
  | .hbm, ⟨50, _⟩ => ⟨S64x256x768, .f32⟩
  | .hbm, ⟨51, _⟩ => ⟨S_, .f32⟩
  | .hbm, ⟨52, _⟩ => ⟨S64x256x768, .f32⟩
  | .hbm, ⟨53, _⟩ => ⟨S64x256x768, .f32⟩
  | .hbm, ⟨54, _⟩ => ⟨S_, .f32⟩
  | .hbm, ⟨55, _⟩ => ⟨S64x256x768, .f32⟩
  | .hbm, ⟨56, _⟩ => ⟨S64x256x768, .f32⟩
  | .hbm, ⟨57, _⟩ => ⟨S64x256x768, .f32⟩
  | .hbm, ⟨58, _⟩ => ⟨S64x256x768, .f32⟩
  | .hbm, ⟨59, _⟩ => ⟨S64x256x2048, .f32⟩
  | .hbm, ⟨60, _⟩ => ⟨S_, .i32⟩
  | .hbm, ⟨61, _⟩ => ⟨S8192, .i32⟩
  | .hbm, ⟨62, _⟩ => ⟨S8192, .i1⟩
  | .hbm, ⟨63, _⟩ => ⟨S_, .i32⟩
  | .hbm, ⟨64, _⟩ => ⟨S8192, .i32⟩
  | .hbm, ⟨65, _⟩ => ⟨S8192, .i32⟩
  | .hbm, ⟨66, _⟩ => ⟨S8192, .i32⟩
  | .hbm, ⟨67, _⟩ => ⟨S_, .i32⟩
  | .hbm, ⟨68, _⟩ => ⟨S8192, .i32⟩
  | .hbm, ⟨69, _⟩ => ⟨S8192, .i1⟩
  | .hbm, ⟨70, _⟩ => ⟨S_, .i32⟩
  | .hbm, ⟨71, _⟩ => ⟨S8192, .i32⟩
  | .hbm, ⟨72, _⟩ => ⟨S8192, .i32⟩
  | .hbm, ⟨73, _⟩ => ⟨S8192, .i32⟩
  | .hbm, ⟨74, _⟩ => ⟨S8192x1, .i32⟩
  | .hbm, ⟨75, _⟩ => ⟨S8192x1, .i32⟩
  | .hbm, ⟨76, _⟩ => ⟨S8192x2, .i32⟩
  | .hbm, ⟨77, _⟩ => ⟨S8192x2048, .f32⟩
  | .hbm, ⟨78, _⟩ => ⟨S8192x1, .i1⟩
  | .hbm, ⟨79, _⟩ => ⟨S8192x1, .f32⟩
  | .hbm, ⟨80, _⟩ => ⟨S8192x2048, .f32⟩
  | .hbm, ⟨81, _⟩ => ⟨S8192x2048, .f32⟩
  | .hbm, ⟨82, _⟩ => ⟨S1024x8x2048, .f32⟩
  | .hbm, ⟨83, _⟩ => ⟨S1024x8x1, .f32⟩
  | .hbm, ⟨84, _⟩ => ⟨S1024x8x2048, .f32⟩
  | .hbm, ⟨85, _⟩ => ⟨S1024x8x2048, .f32⟩
  | .hbm, ⟨86, _⟩ => ⟨S_, .f32⟩
  | .hbm, ⟨87, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_call1_call0_c : Ref sig .tc := ⟨.hbm, 15, rfl⟩
abbrev main_call1_call0_v0 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_c_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call2_v0 : Ref sig .tc := ⟨.hbm, 49, rfl⟩
abbrev main_call2_v1 : Ref sig .tc := ⟨.hbm, 50, rfl⟩
abbrev main_call2_cst : Ref sig .tc := ⟨.hbm, 51, rfl⟩
abbrev main_call2_v2 : Ref sig .tc := ⟨.hbm, 52, rfl⟩
abbrev main_call2_v3 : Ref sig .tc := ⟨.hbm, 53, rfl⟩
abbrev main_call2_cst_0 : Ref sig .tc := ⟨.hbm, 54, rfl⟩
abbrev main_call2_v4 : Ref sig .tc := ⟨.hbm, 55, rfl⟩
abbrev main_call2_v5 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_6 : Ref sig .tc := ⟨.hbm, 60, rfl⟩
abbrev main_v31 : Ref sig .tc := ⟨.hbm, 61, rfl⟩
abbrev main_v32 : Ref sig .tc := ⟨.hbm, 62, rfl⟩
abbrev main_c_7 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_8 : Ref sig .tc := ⟨.hbm, 67, rfl⟩
abbrev main_v36 : Ref sig .tc := ⟨.hbm, 68, rfl⟩
abbrev main_v37 : Ref sig .tc := ⟨.hbm, 69, rfl⟩
abbrev main_c_9 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_10 : Ref sig .tc := ⟨.hbm, 86, rfl⟩
abbrev main_v53 : Ref sig .tc := ⟨.hbm, 87, rfl⟩

abbrev nD : Nat := 1
abbrev τ : Topo := Topo.v7x

variable {F : FTy → Type} [FloatOps F]

class Facts₀ : Prop where
  shapeCasts_S1024x8_S8192 : S1024x8.ShapeCasts S8192
  bcast_S1024x2048_S1024x8x2048_0_2 : S1024x2048.BroadcastsInDim S1024x8x2048 (![0, 2] : Fin 2 → Fin S1024x8x2048.rank)
  shapeCasts_S1024x8x2048_S8192x2048 : S1024x8x2048.ShapeCasts S8192x2048
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S1x64_S8192x64_0_1 : S1x64.BroadcastsInDim S8192x64 (![0, 1] : Fin 2 → Fin S8192x64.rank)
  natLt_1_32 : 1 < 32
  bcast_S_S_ : S_.BroadcastsInDim S_ (![] : Fin 0 → Fin S_.rank)
  reduceWindows_S8192x64_S8192x64_w8192s1p8191_0_w1s1p0_0 : S8192x64.ReduceWindows (![8192, 1] : Fin 2 → Nat) ![1, 1] ![8191, 0] ![0, 0] S8192x64
  h_S_ : 0 < S_.numel
  reducesTo_S8192x64_S8192_d1 : S8192x64.ReducesTo [1] S8192
  bcast_S_S8192 : S_.BroadcastsInDim S8192 (![] : Fin 0 → Fin S8192.rank)
  bcast_S_S64x256x2048 : S_.BroadcastsInDim S64x256x2048 (![] : Fin 0 → Fin S64x256x2048.rank)
  concatenates_S8192x1_S8192x1_S8192x2_d1 : Shape.Concatenates [S8192x1, S8192x1] S8192x2 1
  bcast_S_S64x256x768 : S_.BroadcastsInDim S64x256x768 (![] : Fin 0 → Fin S64x256x768.rank)
  bcast_S8192x1_S8192x2048_0_1 : S8192x1.BroadcastsInDim S8192x2048 (![0, 1] : Fin 2 → Fin S8192x2048.rank)
  shapeCasts_S8192x2048_S1024x8x2048 : S8192x2048.ShapeCasts S1024x8x2048
  bcast_S1024x8_S1024x8x1_0_1 : S1024x8.BroadcastsInDim S1024x8x1 (![0, 1] : Fin 2 → Fin S1024x8x1.rank)
  bcast_S1024x8x1_S1024x8x2048_0_1_2 : S1024x8x1.BroadcastsInDim S1024x8x2048 (![0, 1, 2] : Fin 3 → Fin S1024x8x2048.rank)
  reducesTo_S1024x8x2048_S1024x2048_d1 : S1024x8x2048.ReducesTo [1] S1024x2048
  scatter_S64x256x2048_S8192x2_S8192x2048_1_01_01_1_wf : ScatterDims.WF S64x256x2048 S8192x2 S8192x2048 [1] [0, 1] [0, 1] 1
  dot_S64x256x2048_S64x768x2048_S64x256x768_2_2_1_1_0_0_wf : DotDims.WF S64x256x2048 S64x768x2048 S64x256x768 [2] [2] [1] [1] [0] [0]
  dot_S64x256x768_S64x2048x768_S64x256x2048_2_2_1_1_0_0_wf : DotDims.WF S64x256x768 S64x2048x768 S64x256x2048 [2] [2] [1] [1] [0] [0]
  gather_S64x256x2048_S8192x2_S8192x2048_1_01_n_n_01_1_112048_wf : GatherDims.WF S64x256x2048 S8192x2 S8192x2048 [1] [0, 1] [] [0, 1] [] 1 ![1, 1, 2048]

variable [Facts₀]

def scatter_S64x256x2048_S8192x2_S8192x2048_1_01_01_1 : ScatterDims S64x256x2048 S8192x2 S8192x2048 where
  updateWindowDims := [1]
  insertedWindowDims := [0, 1]
  scatterDimsToOperandDims := [0, 1]
  indexVectorDim := 1
  wf := scatter_S64x256x2048_S8192x2_S8192x2048_1_01_01_1_wf
def dot_S64x256x2048_S64x768x2048_S64x256x768_2_2_1_1_0_0 : DotDims S64x256x2048 S64x768x2048 S64x256x768 where
  lhsContracting := [2]
  rhsContracting := [2]
  lhsNonContracting := [1]
  rhsNonContracting := [1]
  lhsBatch := [0]
  rhsBatch := [0]
  wf := dot_S64x256x2048_S64x768x2048_S64x256x768_2_2_1_1_0_0_wf
def dot_S64x256x768_S64x2048x768_S64x256x2048_2_2_1_1_0_0 : DotDims S64x256x768 S64x2048x768 S64x256x2048 where
  lhsContracting := [2]
  rhsContracting := [2]
  lhsNonContracting := [1]
  rhsNonContracting := [1]
  lhsBatch := [0]
  rhsBatch := [0]
  wf := dot_S64x256x768_S64x2048x768_S64x256x2048_2_2_1_1_0_0_wf
def gather_S64x256x2048_S8192x2_S8192x2048_1_01_n_n_01_1_112048 : GatherDims S64x256x2048 S8192x2 S8192x2048 where
  offsetDims := [1]
  collapsedSliceDims := [0, 1]
  operandBatchingDims := []
  startIndicesBatchingDims := []
  startIndexMap := [0, 1]
  indexVectorDim := 1
  sliceSizes := ![1, 1, 2048]
  wf := gather_S64x256x2048_S8192x2_S8192x2048_1_01_n_n_01_1_112048_wf

class Facts : Prop extends Facts₀ where

variable [Facts]
-- ==== Proof.RefRun.lean ====
/-
  The reference's run, read back.

  The reference's @main is one straight line of host operations once its three outlined functions are written out
  where they are called: the one-hot table of the flattened expert ids (six operations), the running count down
  the token-expert pairs (a windowed integer sum, three operations), and x · 1/(1 + e^(-x)) on the gate
  projection (nine operations). Listed in order they are 82 operations, in three stretches: the 41 that route
  the tokens (expert ids, slot positions, the validity mask, the per-expert buffers written by a scatter), the 13
  of the expert MLP (two batched products, the gated unit, the third product), and the 28 that bring the rows back
  (a gather, the mask, the routing weights, the sum over the k choices). Every weakly fair execution of @main
  terminates with each buffer at the fold of those operations over the launch contents.
-/
import proofs.«162994_j21638045237561_1_alg».proof.ReferenceIdeal
import proofs.«162994_j21638045237561_1_alg».proof.Proof.Gen.ReferenceIdeal
import Idealize.ShloMosaic.Lib.StableHlo.Run

noncomputable section

namespace Cert.ReferenceIdeal.HandRun

open Idealize.ShloMosaic Idealize.SL.Sem Idealize.ShloMosaic.StableHlo Idealize.ShloMosaic.TcCoe Cert.ReferenceIdeal
open Cert.ReferenceIdeal.Facts₀ Cert.ReferenceIdeal.Facts

variable {F : FTy → Type} [FloatOps F]

/-- The routing stretch: expert ids flattened, the tokens repeated k times, each pair's slot in its expert's buffer
    (a running count of the one-hot table, read at the pair's own expert, less one), the validity mask, and the
    scatter of the token rows into the zeroed per-expert buffers. -/
abbrev preOps : List (HloOp τ sig (Elt F)) :=
  [ StableHlo.reshape main_arg2 main_v0 rfl shapeCasts_S1024x8_S8192,
    StableHlo.unary main_arg0 main_v1 (broadcastInDim S1024x8x2048 ![0, 2] bcast_S1024x2048_S1024x8x2048_0_2 : (⟨S1024x2048, .f32⟩ : BufTy).Contents (Elt F) → (⟨S1024x8x2048, .f32⟩ : BufTy).Contents (Elt F)),
    StableHlo.reshape main_v1 main_v2 rfl shapeCasts_S1024x8x2048_S8192x2048,
    StableHlo.TRef.unary (.of main_v0 : StableHlo.TRef sig ⟨S8192, .i32⟩) main_call0.v0 (broadcastInDim S8192x1 ![0] bcast_S8192_S8192x1_0),
    StableHlo.TRef.nullary main_call0.v1 (iotaInDim S1x64 32 1),
    StableHlo.TRef.unary main_call0.v0 main_call0.v2 (broadcastInDim S8192x64 ![0, 1] bcast_S8192x1_S8192x64_0_1),
    StableHlo.TRef.unary main_call0.v1 main_call0.v3 (broadcastInDim S8192x64 ![0, 1] bcast_S1x64_S8192x64_0_1),
    StableHlo.TRef.binary main_call0.v2 main_call0.v3 main_call0.v4 (cmpi .eq),
    StableHlo.TRef.unary main_call0.v4 main_call0.v5 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary (.of main_v3 : StableHlo.TRef sig ⟨S8192x64, .i32⟩) main_call1.call0.v0 main_call1.call0.v1 (fun x v => Host.reduceWindow IntOp.addi ![8192, 1] ![1, 1] ![8191, 0] ![0, 0] x v reduceWindows_S8192x64_S8192x64_w8192s1p8191_0_w1s1p0_0 h_S_),
    StableHlo.binary main_v4 main_v3 main_v5 (muli : (⟨S8192x64, .i32⟩ : BufTy).Contents (Elt F) → (⟨S8192x64, .i32⟩ : BufTy).Contents (Elt F) → (⟨S8192x64, .i32⟩ : BufTy).Contents (Elt F)),
    StableHlo.nullary main_c (constantI S_ 32 0#32),
    StableHlo.binary main_v5 main_c main_v6 ((fun x v => Host.reduce IntOp.addi x v reducesTo_S8192x64_S8192_d1 h_S_) : (⟨S8192x64, .i32⟩ : BufTy).Contents (Elt F) → (⟨S_, .i32⟩ : BufTy).Contents (Elt F) → (⟨S8192, .i32⟩ : BufTy).Contents (Elt F)),
    StableHlo.nullary main_c_0 (constantI S_ 32 1#32),
    StableHlo.unary main_c_0 main_v7 (broadcastInDim S8192 ![] bcast_S_S8192 : (⟨S_, .i32⟩ : BufTy).Contents (Elt F) → (⟨S8192, .i32⟩ : BufTy).Contents (Elt F)),
    StableHlo.binary main_v6 main_v7 main_v8 (subi : (⟨S8192, .i32⟩ : BufTy).Contents (Elt F) → (⟨S8192, .i32⟩ : BufTy).Contents (Elt F) → (⟨S8192, .i32⟩ : BufTy).Contents (Elt F)),
    StableHlo.nullary main_c_1 (constantI S_ 32 256#32),
    StableHlo.unary main_c_1 main_v9 (broadcastInDim S8192 ![] bcast_S_S8192 : (⟨S_, .i32⟩ : BufTy).Contents (Elt F) → (⟨S8192, .i32⟩ : BufTy).Contents (Elt F)),
    StableHlo.binary main_v8 main_v9 main_v10 (cmpi .slt : (⟨S8192, .i32⟩ : BufTy).Contents (Elt F) → (⟨S8192, .i32⟩ : BufTy).Contents (Elt F) → (⟨S8192, .i1⟩ : BufTy).Contents (Elt F)),
    StableHlo.nullary main_cst (constant S_ .f32 0x00000000#32),
    StableHlo.unary main_cst main_v11 (broadcastInDim S64x256x2048 ![] bcast_S_S64x256x2048 : (⟨S_, .f32⟩ : BufTy).Contents (Elt F) → (⟨S64x256x2048, .f32⟩ : BufTy).Contents (Elt F)),
    StableHlo.nullary main_c_2 (constantI S_ 32 0#32),
    StableHlo.unary main_c_2 main_v12 (broadcastInDim S8192 ![] bcast_S_S8192 : (⟨S_, .i32⟩ : BufTy).Contents (Elt F) → (⟨S8192, .i32⟩ : BufTy).Contents (Elt F)),
    StableHlo.binary main_v0 main_v12 main_v13 (cmpi .slt : (⟨S8192, .i32⟩ : BufTy).Contents (Elt F) → (⟨S8192, .i32⟩ : BufTy).Contents (Elt F) → (⟨S8192, .i1⟩ : BufTy).Contents (Elt F)),
    StableHlo.nullary main_c_3 (constantI S_ 32 64#32),
    StableHlo.unary main_c_3 main_v14 (broadcastInDim S8192 ![] bcast_S_S8192 : (⟨S_, .i32⟩ : BufTy).Contents (Elt F) → (⟨S8192, .i32⟩ : BufTy).Contents (Elt F)),
    StableHlo.binary main_v0 main_v14 main_v15 (addi : (⟨S8192, .i32⟩ : BufTy).Contents (Elt F) → (⟨S8192, .i32⟩ : BufTy).Contents (Elt F) → (⟨S8192, .i32⟩ : BufTy).Contents (Elt F)),
    StableHlo.ternary main_v13 main_v15 main_v0 main_v16 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_4 (constantI S_ 32 0#32),
    StableHlo.unary main_c_4 main_v17 (broadcastInDim S8192 ![] bcast_S_S8192 : (⟨S_, .i32⟩ : BufTy).Contents (Elt F) → (⟨S8192, .i32⟩ : BufTy).Contents (Elt F)),
    StableHlo.binary main_v8 main_v17 main_v18 (cmpi .slt : (⟨S8192, .i32⟩ : BufTy).Contents (Elt F) → (⟨S8192, .i32⟩ : BufTy).Contents (Elt F) → (⟨S8192, .i1⟩ : BufTy).Contents (Elt F)),
    StableHlo.nullary main_c_5 (constantI S_ 32 256#32),
    StableHlo.unary main_c_5 main_v19 (broadcastInDim S8192 ![] bcast_S_S8192 : (⟨S_, .i32⟩ : BufTy).Contents (Elt F) → (⟨S8192, .i32⟩ : BufTy).Contents (Elt F)),
    StableHlo.binary main_v8 main_v19 main_v20 (addi : (⟨S8192, .i32⟩ : BufTy).Contents (Elt F) → (⟨S8192, .i32⟩ : BufTy).Contents (Elt F) → (⟨S8192, .i32⟩ : BufTy).Contents (Elt F)),
    StableHlo.ternary main_v18 main_v20 main_v8 main_v21 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v16 main_v22 (broadcastInDim S8192x1 ![0] bcast_S8192_S8192x1_0 : (⟨S8192, .i32⟩ : BufTy).Contents (Elt F) → (⟨S8192x1, .i32⟩ : BufTy).Contents (Elt F)),
    StableHlo.unary main_v21 main_v23 (broadcastInDim S8192x1 ![0] bcast_S8192_S8192x1_0 : (⟨S8192, .i32⟩ : BufTy).Contents (Elt F) → (⟨S8192x1, .i32⟩ : BufTy).Contents (Elt F)),
    StableHlo.binary main_v22 main_v23 main_v24 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.ternary main_v11 main_v24 main_v2 main_v25 ((fun x i u => Host.scatter scatter_S64x256x2048_S8192x2_S8192x2048_1_01_01_1 (fun _ b => b) x i u) : (⟨S64x256x2048, .f32⟩ : BufTy).Contents (Elt F) → (⟨S8192x2, .i32⟩ : BufTy).Contents (Elt F) → (⟨S8192x2048, .f32⟩ : BufTy).Contents (Elt F) → (⟨S64x256x2048, .f32⟩ : BufTy).Contents (Elt F)) ]

/-- The expert MLP: per expert, the gate and up projections of its buffer, x · 1/(1 + e^(-x)) of the first times
    the second, and the down projection. -/
abbrev midOps : List (HloOp τ sig (Elt F)) :=
  [ StableHlo.binary main_v25 main_arg3 main_v26 ((fun l r => Host.dotGeneral dot_S64x256x2048_S64x768x2048_S64x256x768_2_2_1_1_0_0 none l r) : (⟨S64x256x2048, .f32⟩ : BufTy).Contents (Elt F) → (⟨S64x768x2048, .f32⟩ : BufTy).Contents (Elt F) → (⟨S64x256x768, .f32⟩ : BufTy).Contents (Elt F)),
    StableHlo.binary main_v25 main_arg4 main_v27 ((fun l r => Host.dotGeneral dot_S64x256x2048_S64x768x2048_S64x256x768_2_2_1_1_0_0 none l r) : (⟨S64x256x2048, .f32⟩ : BufTy).Contents (Elt F) → (⟨S64x768x2048, .f32⟩ : BufTy).Contents (Elt F) → (⟨S64x256x768, .f32⟩ : BufTy).Contents (Elt F)),
    StableHlo.TRef.unary (.of main_v26 : StableHlo.TRef sig ⟨S64x256x768, .f32⟩) main_call2.v0 Host.negf,
    StableHlo.TRef.unary main_call2.v0 main_call2.v1 Host.exp,
    StableHlo.TRef.nullary main_call2.cst (constant S_ .f32 0x3F800000#32),
    StableHlo.TRef.unary main_call2.cst main_call2.v2 (broadcastInDim S64x256x768 ![] bcast_S_S64x256x768),
    StableHlo.TRef.binary main_call2.v2 main_call2.v1 main_call2.v3 addf,
    StableHlo.TRef.nullary main_call2.cst_0 (constant S_ .f32 0x3F800000#32),
    StableHlo.TRef.unary main_call2.cst_0 main_call2.v4 (broadcastInDim S64x256x768 ![] bcast_S_S64x256x768),
    StableHlo.TRef.binary main_call2.v4 main_call2.v3 main_call2.v5 Host.divf,
    StableHlo.TRef.binary (.of main_v26 : StableHlo.TRef sig ⟨S64x256x768, .f32⟩) main_call2.v5 main_call2.v6 mulf,
    StableHlo.binary main_v28 main_v27 main_v29 (mulf : (⟨S64x256x768, .f32⟩ : BufTy).Contents (Elt F) → (⟨S64x256x768, .f32⟩ : BufTy).Contents (Elt F) → (⟨S64x256x768, .f32⟩ : BufTy).Contents (Elt F)),
    StableHlo.binary main_v29 main_arg5 main_v30 ((fun l r => Host.dotGeneral dot_S64x256x768_S64x2048x768_S64x256x2048_2_2_1_1_0_0 none l r) : (⟨S64x256x768, .f32⟩ : BufTy).Contents (Elt F) → (⟨S64x2048x768, .f32⟩ : BufTy).Contents (Elt F) → (⟨S64x256x2048, .f32⟩ : BufTy).Contents (Elt F)) ]

/-- The combine stretch: each pair's row gathered back from its expert's output, masked, weighted by its routing
    weight and summed over the k choices of its token. -/
abbrev tailOps : List (HloOp τ sig (Elt F)) :=
  [ StableHlo.nullary main_c_6 (constantI S_ 32 0#32),
    StableHlo.unary main_c_6 main_v31 (broadcastInDim S8192 ![] bcast_S_S8192 : (⟨S_, .i32⟩ : BufTy).Contents (Elt F) → (⟨S8192, .i32⟩ : BufTy).Contents (Elt F)),
    StableHlo.binary main_v0 main_v31 main_v32 (cmpi .slt : (⟨S8192, .i32⟩ : BufTy).Contents (Elt F) → (⟨S8192, .i32⟩ : BufTy).Contents (Elt F) → (⟨S8192, .i1⟩ : BufTy).Contents (Elt F)),
    StableHlo.nullary main_c_7 (constantI S_ 32 64#32),
    StableHlo.unary main_c_7 main_v33 (broadcastInDim S8192 ![] bcast_S_S8192 : (⟨S_, .i32⟩ : BufTy).Contents (Elt F) → (⟨S8192, .i32⟩ : BufTy).Contents (Elt F)),
    StableHlo.binary main_v0 main_v33 main_v34 (addi : (⟨S8192, .i32⟩ : BufTy).Contents (Elt F) → (⟨S8192, .i32⟩ : BufTy).Contents (Elt F) → (⟨S8192, .i32⟩ : BufTy).Contents (Elt F)),
    StableHlo.ternary main_v32 main_v34 main_v0 main_v35 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_8 (constantI S_ 32 0#32),
    StableHlo.unary main_c_8 main_v36 (broadcastInDim S8192 ![] bcast_S_S8192 : (⟨S_, .i32⟩ : BufTy).Contents (Elt F) → (⟨S8192, .i32⟩ : BufTy).Contents (Elt F)),
    StableHlo.binary main_v8 main_v36 main_v37 (cmpi .slt : (⟨S8192, .i32⟩ : BufTy).Contents (Elt F) → (⟨S8192, .i32⟩ : BufTy).Contents (Elt F) → (⟨S8192, .i1⟩ : BufTy).Contents (Elt F)),
    StableHlo.nullary main_c_9 (constantI S_ 32 256#32),
    StableHlo.unary main_c_9 main_v38 (broadcastInDim S8192 ![] bcast_S_S8192 : (⟨S_, .i32⟩ : BufTy).Contents (Elt F) → (⟨S8192, .i32⟩ : BufTy).Contents (Elt F)),
    StableHlo.binary main_v8 main_v38 main_v39 (addi : (⟨S8192, .i32⟩ : BufTy).Contents (Elt F) → (⟨S8192, .i32⟩ : BufTy).Contents (Elt F) → (⟨S8192, .i32⟩ : BufTy).Contents (Elt F)),
    StableHlo.ternary main_v37 main_v39 main_v8 main_v40 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v35 main_v41 (broadcastInDim S8192x1 ![0] bcast_S8192_S8192x1_0 : (⟨S8192, .i32⟩ : BufTy).Contents (Elt F) → (⟨S8192x1, .i32⟩ : BufTy).Contents (Elt F)),
    StableHlo.unary main_v40 main_v42 (broadcastInDim S8192x1 ![0] bcast_S8192_S8192x1_0 : (⟨S8192, .i32⟩ : BufTy).Contents (Elt F) → (⟨S8192x1, .i32⟩ : BufTy).Contents (Elt F)),
    StableHlo.binary main_v41 main_v42 main_v43 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v30 main_v43 main_v44 ((fun x i => Host.gather gather_S64x256x2048_S8192x2_S8192x2048_1_01_n_n_01_1_112048 x i) : (⟨S64x256x2048, .f32⟩ : BufTy).Contents (Elt F) → (⟨S8192x2, .i32⟩ : BufTy).Contents (Elt F) → (⟨S8192x2048, .f32⟩ : BufTy).Contents (Elt F)),
    StableHlo.unary main_v10 main_v45 (broadcastInDim S8192x1 ![0] bcast_S8192_S8192x1_0 : (⟨S8192, .i1⟩ : BufTy).Contents (Elt F) → (⟨S8192x1, .i1⟩ : BufTy).Contents (Elt F)),
    StableHlo.unary main_v45 main_v46 (uitofp .f32 : (⟨S8192x1, .i1⟩ : BufTy).Contents (Elt F) → (⟨S8192x1, .f32⟩ : BufTy).Contents (Elt F)),
    StableHlo.unary main_v46 main_v47 (broadcastInDim S8192x2048 ![0, 1] bcast_S8192x1_S8192x2048_0_1 : (⟨S8192x1, .f32⟩ : BufTy).Contents (Elt F) → (⟨S8192x2048, .f32⟩ : BufTy).Contents (Elt F)),
    StableHlo.binary main_v44 main_v47 main_v48 (mulf : (⟨S8192x2048, .f32⟩ : BufTy).Contents (Elt F) → (⟨S8192x2048, .f32⟩ : BufTy).Contents (Elt F) → (⟨S8192x2048, .f32⟩ : BufTy).Contents (Elt F)),
    StableHlo.reshape main_v48 main_v49 rfl shapeCasts_S8192x2048_S1024x8x2048,
    StableHlo.unary main_arg1 main_v50 (broadcastInDim S1024x8x1 ![0, 1] bcast_S1024x8_S1024x8x1_0_1 : (⟨S1024x8, .f32⟩ : BufTy).Contents (Elt F) → (⟨S1024x8x1, .f32⟩ : BufTy).Contents (Elt F)),
    StableHlo.unary main_v50 main_v51 (broadcastInDim S1024x8x2048 ![0, 1, 2] bcast_S1024x8x1_S1024x8x2048_0_1_2 : (⟨S1024x8x1, .f32⟩ : BufTy).Contents (Elt F) → (⟨S1024x8x2048, .f32⟩ : BufTy).Contents (Elt F)),
    StableHlo.binary main_v49 main_v51 main_v52 (mulf : (⟨S1024x8x2048, .f32⟩ : BufTy).Contents (Elt F) → (⟨S1024x8x2048, .f32⟩ : BufTy).Contents (Elt F) → (⟨S1024x8x2048, .f32⟩ : BufTy).Contents (Elt F)),
    StableHlo.nullary main_cst_10 (constant S_ .f32 0x00000000#32),
    StableHlo.binary main_v52 main_cst_10 main_v53 ((fun x v => Host.reduceAdd x v reducesTo_S1024x8x2048_S1024x2048_d1 h_S_) : (⟨S1024x8x2048, .f32⟩ : BufTy).Contents (Elt F) → (⟨S_, .f32⟩ : BufTy).Contents (Elt F) → (⟨S1024x2048, .f32⟩ : BufTy).Contents (Elt F)) ]

/-- @main's host operations in program order. -/
abbrev ops : List (HloOp τ sig (Elt F)) := preOps ++ (midOps ++ tailOps)

set_option maxRecDepth 8192 in
set_option maxHeartbeats 4000000 in
/-- @main is that straight line: the functions unfolded at their calls, sequencing reassociated. -/
theorem main_eq (c : Dev nD) : main (F := F) c = seq ops := by
  simp only [main, main_part0, main_part1, fn_one_hot.body, fn_cumsum.body, fn_cumsum_0.body, fn_silu.body, seq, bind_assoc, pure_bind,
    ops, preOps, midOps, tailOps, List.cons_append, List.nil_append]

theorem scopedRefs_eq : (Finset.univ.filter fun b : Ref sig .tc => b.isScoped) = ∅ := by decide
theorem scopedSems_eq : (Finset.univ.filter fun sm : SemLoc sig => sm.isScoped .tc) = ∅ := by decide

theorem preOps_sub : (preOps : List (HloOp τ sig (Elt F))).Forall fun op => op.bufs ⊆ tcRefs τ sig :=
  ⟨StableHlo.reshape_bufs_sub ..,
    StableHlo.unary_bufs_sub ..,
    StableHlo.reshape_bufs_sub ..,
    StableHlo.unary_bufs_sub ..,
    StableHlo.nullary_bufs_sub ..,
    StableHlo.unary_bufs_sub ..,
    StableHlo.unary_bufs_sub ..,
    StableHlo.binary_bufs_sub ..,
    StableHlo.unary_bufs_sub ..,
    StableHlo.nullary_bufs_sub ..,
    StableHlo.unary_bufs_sub ..,
    StableHlo.binary_bufs_sub ..,
    StableHlo.binary_bufs_sub ..,
    StableHlo.nullary_bufs_sub ..,
    StableHlo.binary_bufs_sub ..,
    StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.nullary_bufs_sub ..,
    StableHlo.unary_bufs_sub ..,
    StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.ternary_bufs_sub ..,
    StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.ternary_bufs_sub ..,
    StableHlo.unary_bufs_sub ..,
    StableHlo.unary_bufs_sub ..,
    StableHlo.binary_bufs_sub ..,
    StableHlo.ternary_bufs_sub ..⟩
theorem midOps_sub : (midOps : List (HloOp τ sig (Elt F))).Forall fun op => op.bufs ⊆ tcRefs τ sig :=
  ⟨StableHlo.binary_bufs_sub ..,
    StableHlo.binary_bufs_sub ..,
    StableHlo.unary_bufs_sub ..,
    StableHlo.unary_bufs_sub ..,
    StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.binary_bufs_sub ..,
    StableHlo.binary_bufs_sub ..,
    StableHlo.binary_bufs_sub ..⟩
theorem tailOps_sub : (tailOps : List (HloOp τ sig (Elt F))).Forall fun op => op.bufs ⊆ tcRefs τ sig :=
  ⟨StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.ternary_bufs_sub ..,
    StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.ternary_bufs_sub ..,
    StableHlo.unary_bufs_sub ..,
    StableHlo.unary_bufs_sub ..,
    StableHlo.binary_bufs_sub ..,
    StableHlo.binary_bufs_sub ..,
    StableHlo.unary_bufs_sub ..,
    StableHlo.unary_bufs_sub ..,
    StableHlo.unary_bufs_sub ..,
    StableHlo.binary_bufs_sub ..,
    StableHlo.reshape_bufs_sub ..,
    StableHlo.unary_bufs_sub ..,
    StableHlo.unary_bufs_sub ..,
    StableHlo.binary_bufs_sub ..,
    StableHlo.nullary_bufs_sub ..,
    StableHlo.binary_bufs_sub ..⟩

/-- Every operation touches TensorCore buffers only. -/
theorem ops_sub : (ops : List (HloOp τ sig (Elt F))).Forall fun op => op.bufs ⊆ tcRefs τ sig :=
  List.forall_iff_forall_mem.mpr fun op h => by
    rcases List.mem_append.mp h with h | h
    · exact List.forall_iff_forall_mem.mp preOps_sub op h
    · rcases List.mem_append.mp h with h | h
      · exact List.forall_iff_forall_mem.mp midOps_sub op h
      · exact List.forall_iff_forall_mem.mp tailOps_sub op h

/-- Running two stretches one after the other folds the second over what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Every weakly fair execution of @main terminates, and every final state has each buffer at the fold of the
    three stretches, in order, over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after tailOps (after midOps (after preOps (launchContents m c))) (Proc.devRef .tc b) :=
  (θ_run defs _ _).mono (fun r h c b => by rw [h c b, after_append, after_append])
    (run_seq scopedRefs_eq scopedSems_eq defs main (fun _ => ops) main_eq (fun _ => ops_sub) m ρ)

end Cert.ReferenceIdeal.HandRun

end
-- ==== Proof.LibBatchTransDot.lean ====
/-
  A batched matrix product with the right operand transposed, read at an index, over the extended reals.

  For the dimension numbers of a B×M×K by B×N×K product (one batch axis, the leading one of both operands;
  contract the last axis of the left operand with the last axis of the right one: for each b, lhs_b · rhs_bᵀ) the
  entry (b, i, j) of the product is the sum over k of lhs (b, i, k) · rhs (b, j, k): stated for the host's
  `dot_general` and for a `tpu.matmul` into the zero splat, for any extents B, M, K, N. The contraction index of
  such a product has one axis of extent K, and the sum over it is re-indexed by that coordinate. No finiteness is
  used: the statement is a re-indexing of one sum.
-/
import Idealize.ShloMosaic.Lib.ValueIdx
import Idealize.ShloMosaic.PureOps.Ideal.Laws

noncomputable section

open scoped BigOperators

namespace Idealize.ShloMosaic.BatchTransDot

open Idealize.ShloMosaic Idealize.ShloMosaic.ValueIdx

variable {B M K N : Nat}

/-- The dimension numbers: batch axis 0 of both operands, free axis 1 of both, contracted axis 2 of both; the
    well-formedness fact is the caller's (at literal extents it is decided). -/
def dims (B M K N : Nat)
    (wf : DotDims.WF ⟨3, ![B, M, K]⟩ ⟨3, ![B, N, K]⟩ ⟨3, ![B, M, N]⟩ [2] [2] [1] [1] [0] [0]) :
    DotDims ⟨3, ![B, M, K]⟩ ⟨3, ![B, N, K]⟩ ⟨3, ![B, M, N]⟩ where
  lhsContracting := [2]
  rhsContracting := [2]
  lhsNonContracting := [1]
  rhsNonContracting := [1]
  lhsBatch := [0]
  rhsBatch := [0]
  wf := wf

variable (wf : DotDims.WF ⟨3, ![B, M, K]⟩ ⟨3, ![B, N, K]⟩ ⟨3, ![B, M, N]⟩ [2] [2] [1] [1] [0] [0])

/-- The left operand's batch coordinate is the result's. -/
theorem lhs_batch (j : (⟨3, ![B, M, N]⟩ : Shape).Idx) (q : (dims B M K N wf).contr.Idx) :
    ((dims B M K N wf).lhsIdx j q 0).val = (j 0).val := by
  unfold DotDims.lhsIdx
  rw [dif_pos (show (0 : Fin (⟨3, ![B, M, K]⟩ : Shape).rank) ∈ (dims B M K N wf).lhsBatch from List.mem_singleton.mpr rfl)]
  rfl

/-- The left operand's row coordinate is the result's row coordinate. -/
theorem lhs_row (j : (⟨3, ![B, M, N]⟩ : Shape).Idx) (q : (dims B M K N wf).contr.Idx) :
    ((dims B M K N wf).lhsIdx j q 1).val = (j 1).val := by
  unfold DotDims.lhsIdx
  rw [dif_neg (show ¬(1 : Fin (⟨3, ![B, M, K]⟩ : Shape).rank) ∈ (dims B M K N wf).lhsBatch from
      fun h => Nat.one_ne_zero (congrArg Fin.val (List.mem_singleton.mp h))),
    dif_pos (show (1 : Fin (⟨3, ![B, M, K]⟩ : Shape).rank) ∈ (dims B M K N wf).lhsNonContracting from List.mem_singleton.mpr rfl)]
  rfl

/-- The left operand's last coordinate is the contraction coordinate. -/
theorem lhs_col (j : (⟨3, ![B, M, N]⟩ : Shape).Idx) (q : (dims B M K N wf).contr.Idx) :
    ((dims B M K N wf).lhsIdx j q 2).val = (q ⟨0, show 0 < (dims B M K N wf).contr.rank from Nat.one_pos⟩).val :=
  (dims B M K N wf).lhsIdx_val_of_single rfl j q

/-- The right operand's batch coordinate is the result's. -/
theorem rhs_batch (j : (⟨3, ![B, M, N]⟩ : Shape).Idx) (q : (dims B M K N wf).contr.Idx) :
    ((dims B M K N wf).rhsIdx j q 0).val = (j 0).val := by
  unfold DotDims.rhsIdx
  rw [dif_pos (show (0 : Fin (⟨3, ![B, N, K]⟩ : Shape).rank) ∈ (dims B M K N wf).rhsBatch from List.mem_singleton.mpr rfl)]
  rfl

/-- The right operand's row coordinate is the result's column coordinate. -/
theorem rhs_row (j : (⟨3, ![B, M, N]⟩ : Shape).Idx) (q : (dims B M K N wf).contr.Idx) :
    ((dims B M K N wf).rhsIdx j q 1).val = (j 2).val := by
  unfold DotDims.rhsIdx
  rw [dif_neg (show ¬(1 : Fin (⟨3, ![B, N, K]⟩ : Shape).rank) ∈ (dims B M K N wf).rhsBatch from
      fun h => Nat.one_ne_zero (congrArg Fin.val (List.mem_singleton.mp h))),
    dif_pos (show (1 : Fin (⟨3, ![B, N, K]⟩ : Shape).rank) ∈ (dims B M K N wf).rhsNonContracting from List.mem_singleton.mpr rfl)]
  rfl

/-- The right operand's last coordinate is the contraction coordinate. -/
theorem rhs_col (j : (⟨3, ![B, M, N]⟩ : Shape).Idx) (q : (dims B M K N wf).contr.Idx) :
    ((dims B M K N wf).rhsIdx j q 2).val = (q ⟨0, show 0 < (dims B M K N wf).contr.rank from Nat.one_pos⟩).val :=
  (dims B M K N wf).rhsIdx_val_of_single rfl j q

/-- The sum over the contraction index is the sum over k of lhs (b, i, k) · rhs (b, j, k). -/
theorem sum_contr (lhs : (⟨3, ![B, M, K]⟩ : Shape).Idx → EReal) (rhs : (⟨3, ![B, N, K]⟩ : Shape).Idx → EReal)
    (b : Fin B) (i : Fin M) (j : Fin N) :
    (∑ q : (dims B M K N wf).contr.Idx,
        lhs ((dims B M K N wf).lhsIdx (ix3 b i j) q) * rhs ((dims B M K N wf).rhsIdx (ix3 b i j) q))
      = ∑ k : Fin K, lhs (ix3 b i k) * rhs (ix3 b j k) := by
  rw [← Equiv.sum_comp (contrEquiv1 (dims B M K N wf) K rfl rfl).symm]
  refine Finset.sum_congr rfl fun k _ => ?_
  have hk := contrEquiv1_symm_val (dims B M K N wf) K rfl rfl k
  have el : (dims B M K N wf).lhsIdx (ix3 b i j) ((contrEquiv1 (dims B M K N wf) K rfl rfl).symm k) = ix3 b i k :=
    funext fun a => Fin.ext (by
      match a with
      | ⟨0, _⟩ => exact lhs_batch wf _ _
      | ⟨1, _⟩ => exact lhs_row wf _ _
      | ⟨2, _⟩ => exact (lhs_col wf _ _).trans hk)
  have er : (dims B M K N wf).rhsIdx (ix3 b i j) ((contrEquiv1 (dims B M K N wf) K rfl rfl).symm k) = ix3 b j k :=
    funext fun a => Fin.ext (by
      match a with
      | ⟨0, _⟩ => exact rhs_batch wf _ _
      | ⟨1, _⟩ => exact rhs_row wf _ _
      | ⟨2, _⟩ => exact (rhs_col wf _ _).trans hk)
  rw [el, er]

/-- The host's `dot_general` of these dimension numbers, at (b, i, j): the sum over k of the products. -/
theorem dotGeneral_apply {φ₁ φ₂ : FTy} (prec : Option ContractPrecision) (sched : HostSchedule)
    (lhs : FVec Ideal ⟨3, ![B, M, K]⟩ φ₁) (rhs : FVec Ideal ⟨3, ![B, N, K]⟩ φ₂) (b : Fin B) (i : Fin M) (j : Fin N) :
    FloatOps.dotGeneral (dims B M K N wf) prec sched lhs rhs (ix3 b i j)
      = ∑ k : Fin K, lhs (ix3 b i k) * rhs (ix3 b j k) :=
  (Ideal.dotGeneral_apply (dims B M K N wf) prec sched lhs rhs (ix3 b i j)).trans (sum_contr wf lhs rhs b i j)

/-- A `tpu.matmul` of these dimension numbers into the zero splat, at (b, i, j): the same sum. -/
theorem matmul_zero_apply {φ₁ φ₂ : FTy} (prec : Option ContractPrecision)
    (lhs : FVec Ideal ⟨3, ![B, M, K]⟩ φ₁) (rhs : FVec Ideal ⟨3, ![B, N, K]⟩ φ₂) (b : Fin B) (i : Fin M) (j : Fin N) :
    FloatOps.matmul (dims B M K N wf) prec lhs rhs (constant ⟨3, ![B, M, N]⟩ .f32 0x00000000#32) (ix3 b i j)
      = ∑ k : Fin K, lhs (ix3 b i k) * rhs (ix3 b j k) :=
  (Ideal.matmul_constant_zero_apply (dims B M K N wf) prec lhs rhs (ix3 b i j)).trans (sum_contr wf lhs rhs b i j)

end Idealize.ShloMosaic.BatchTransDot

end
-- ==== Proof.Expert.lean ====
/-
  The expert MLP as one function of the whole arrays, index by index, over the extended reals.

  For per-expert buffers x : [64, 256, 2048], gate and up weights wg, wu : [64, 768, 2048] and down weights
  wd : [64, 2048, 768]:
    proj x w (e, r, i)   = Σ_k x(e, r, k) · w(e, i, k)                    (a row of the buffer against a weight row)
    hidden (e, r, i)     = (g · 1/(1 + e^(-g))) · u,   g = proj x wg, u = proj x wu   (the gated unit)
    out (e, r, h)        = Σ_i hidden(e, r, i) · wd(e, h, i).
  Every entry of expert e's output depends on expert e's slabs only. No finiteness is assumed: the two programs
  compute these very sums and products, in this order of multiplication, so nothing is rearranged.
-/
import Idealize.ShloMosaic.Lib.ValueIdx
import Idealize.ShloMosaic.PureOps.Ideal

noncomputable section

open scoped BigOperators

namespace Cert.MoE

open Idealize.ShloMosaic Idealize.ShloMosaic.ValueIdx

/-- A buffer row against a weight row of the same expert. -/
def proj (x : (⟨3, ![64, 256, 2048]⟩ : Shape).Idx → EReal) (w : (⟨3, ![64, 768, 2048]⟩ : Shape).Idx → EReal)
    (e : Fin 64) (r : Fin 256) (i : Fin 768) : EReal :=
  ∑ k : Fin 2048, x (ix3 e r k) * w (ix3 e i k)

/-- The gated unit: g · logistic g · u. -/
def hidden (x : (⟨3, ![64, 256, 2048]⟩ : Shape).Idx → EReal) (wg wu : (⟨3, ![64, 768, 2048]⟩ : Shape).Idx → EReal)
    (e : Fin 64) (r : Fin 256) (i : Fin 768) : EReal :=
  (proj x wg e r i * Ideal.logistic (proj x wg e r i)) * proj x wu e r i

/-- One entry of an expert's output. -/
def outAt (x : (⟨3, ![64, 256, 2048]⟩ : Shape).Idx → EReal) (wg wu : (⟨3, ![64, 768, 2048]⟩ : Shape).Idx → EReal)
    (wd : (⟨3, ![64, 2048, 768]⟩ : Shape).Idx → EReal) (e : Fin 64) (r : Fin 256) (h : Fin 2048) : EReal :=
  ∑ i : Fin 768, hidden x wg wu e r i * wd (ix3 e h i)

/-- The experts' outputs as one array. -/
def expertOut (x : (⟨3, ![64, 256, 2048]⟩ : Shape).Idx → EReal) (wg wu : (⟨3, ![64, 768, 2048]⟩ : Shape).Idx → EReal)
    (wd : (⟨3, ![64, 2048, 768]⟩ : Shape).Idx → EReal) : (⟨3, ![64, 256, 2048]⟩ : Shape).Idx → EReal :=
  fun j => outAt x wg wu wd (j 0) (j 1) (j 2)

theorem expertOut_ix3 (x : (⟨3, ![64, 256, 2048]⟩ : Shape).Idx → EReal) (wg wu : (⟨3, ![64, 768, 2048]⟩ : Shape).Idx → EReal)
    (wd : (⟨3, ![64, 2048, 768]⟩ : Shape).Idx → EReal) (e : Fin 64) (r : Fin 256) (h : Fin 2048) :
    expertOut x wg wu wd (ix3 e r h) = outAt x wg wu wd e r h := rfl

end Cert.MoE

end
-- ==== Proof.RefMid.lean ====
/-
  The reference's expert MLP, read at an index.

  The reference forms, for all experts at once, g = buf · wgᵀ and u = buf · wuᵀ (batched products, the expert the
  batch axis, contracting the hidden axis), then g · (1 / (1 + e^(-g))) — which on the extended reals is
  g · logistic g, the literal 1.0 read as 1 — times u, and the batched product of that with wdᵀ. Read at (e, r, h)
  each batched product is a sum over its contracted coordinate of expert e's entries, so the result is the expert
  MLP's entry (e, r, h). Nothing is rearranged and no finiteness is used.
-/
import proofs.«162994_j21638045237561_1_alg».proof.Proof.RefRun
import proofs.«162994_j21638045237561_1_alg».proof.Proof.LibBatchTransDot
import proofs.«162994_j21638045237561_1_alg».proof.Proof.Expert
import Idealize.ShloMosaic.PureOps.IdealRules

noncomputable section

open scoped BigOperators

namespace Cert.ReferenceIdeal.Mid

open Idealize.ShloMosaic Idealize.ShloMosaic.ValueIdx Idealize.ShloMosaic.StableHlo Idealize.ShloMosaic.TcCoe Cert.ReferenceIdeal
open Cert.ReferenceIdeal.Facts₀ Cert.ReferenceIdeal.Facts Cert.ReferenceIdeal.HandRun

/-- The f32 word of 1.0 is the extended real 1. -/
theorem one_f32 : Ideal.ofBits .f32 0x3F800000#32 = 1 := IdealRules.sign_bit.ideal_onePat .f32

/-- The host's batched product with the right operand transposed, for dimension numbers that are those. -/
theorem dotB_apply {B M K N : Nat} {φ₁ φ₂ : FTy} (d : DotDims ⟨3, ![B, M, K]⟩ ⟨3, ![B, N, K]⟩ ⟨3, ![B, M, N]⟩)
    (wf : DotDims.WF ⟨3, ![B, M, K]⟩ ⟨3, ![B, N, K]⟩ ⟨3, ![B, M, N]⟩ [2] [2] [1] [1] [0] [0])
    (hd : d = BatchTransDot.dims B M K N wf) (lhs : FVec Ideal ⟨3, ![B, M, K]⟩ φ₁) (rhs : FVec Ideal ⟨3, ![B, N, K]⟩ φ₂)
    (b : Fin B) (i : Fin M) (j : Fin N) :
    Host.dotGeneral d none lhs rhs (ix3 b i j) = ∑ k : Fin K, lhs (ix3 b i k) * rhs (ix3 b j k) := by
  subst hd
  exact BatchTransDot.dotGeneral_apply wf none .single lhs rhs b i j

/-- x · (1 / (1 + e^(-x))) as the host computes it, at one element: x · logistic x. -/
theorem silu_elt (g : Ideal .f32) :
    FloatOps.mulf g (FloatOps.hostDivf (Ideal.ofBits .f32 0x3F800000#32)
        (FloatOps.addf (Ideal.ofBits .f32 0x3F800000#32) (FloatOps.hostUnary .exp (FloatOps.hostNegf g))))
      = g * Ideal.logistic g := by
  rw [one_f32]; rfl

/-- The literal 1.0 spread over the gate projection's shape. -/
abbrev ones : FVec Ideal S64x256x768 .f32 :=
  broadcastInDim S64x256x768 ![] bcast_S_S64x256x768 (constant S_ .f32 0x3F800000#32)

/-- The middle stretch as one term of its four operands. -/
def midTerm (x : FVec Ideal S64x256x2048 .f32) (wg wu : FVec Ideal S64x768x2048 .f32) (wd : FVec Ideal S64x2048x768 .f32) :
    FVec Ideal S64x256x2048 .f32 :=
  Host.dotGeneral dot_S64x256x768_S64x2048x768_S64x256x2048_2_2_1_1_0_0 none
    (mulf
      (mulf (Host.dotGeneral dot_S64x256x2048_S64x768x2048_S64x256x768_2_2_1_1_0_0 none x wg)
        (Host.divf ones (addf ones (Host.exp (Host.negf
          (Host.dotGeneral dot_S64x256x2048_S64x768x2048_S64x256x768_2_2_1_1_0_0 none x wg))))))
      (Host.dotGeneral dot_S64x256x2048_S64x768x2048_S64x256x768_2_2_1_1_0_0 none x wu))
    wd

/-- It is the expert MLP of its operands. -/
theorem midTerm_eq (x : FVec Ideal S64x256x2048 .f32) (wg wu : FVec Ideal S64x768x2048 .f32) (wd : FVec Ideal S64x2048x768 .f32) :
    midTerm x wg wu wd = Cert.MoE.expertOut x wg wu wd := by
  funext j
  obtain ⟨e, r, h, rfl⟩ : ∃ (e : Fin 64) (r : Fin 256) (h : Fin 2048), j = ix3 e r h := ⟨j 0, j 1, j 2, eq_ix3 j⟩
  rw [Cert.MoE.expertOut_ix3]
  unfold midTerm Cert.MoE.outAt Cert.MoE.hidden
  refine (dotB_apply _ dot_S64x256x768_S64x2048x768_S64x256x2048_2_2_1_1_0_0.wf rfl _ _ e r h).trans ?_
  refine Finset.sum_congr rfl fun i _ => ?_
  refine congrArg (· * wd (ix3 e h i)) ?_
  have pg : Host.dotGeneral dot_S64x256x2048_S64x768x2048_S64x256x768_2_2_1_1_0_0 none x wg (ix3 e r i) = Cert.MoE.proj x wg e r i :=
    dotB_apply _ dot_S64x256x2048_S64x768x2048_S64x256x768_2_2_1_1_0_0.wf rfl x wg e r i
  have pu : Host.dotGeneral dot_S64x256x2048_S64x768x2048_S64x256x768_2_2_1_1_0_0 none x wu (ix3 e r i) = Cert.MoE.proj x wu e r i :=
    dotB_apply _ dot_S64x256x2048_S64x768x2048_S64x256x768_2_2_1_1_0_0.wf rfl x wu e r i
  show FloatOps.mulf (FloatOps.mulf _ (FloatOps.hostDivf (Ideal.ofBits .f32 0x3F800000#32)
      (FloatOps.addf (Ideal.ofBits .f32 0x3F800000#32) (FloatOps.hostUnary .exp (FloatOps.hostNegf _))))) _ = _
  rw [pg, pu, silu_elt]
  rfl

/-- What the middle stretch leaves in the experts' output buffer, from any contents: the expert MLP of the
    per-expert buffers and the three weight arrays as it finds them. -/
theorem mid_result (V : Valuation τ sig (Elt Ideal)) :
    after midOps V (Proc.devRef .tc main_v30)
      = Cert.MoE.expertOut (V (Proc.devRef .tc main_v25)) (V (Proc.devRef .tc main_arg3)) (V (Proc.devRef .tc main_arg4))
          (V (Proc.devRef .tc main_arg5)) := by
  refine Eq.trans ?_ (midTerm_eq _ _ _ _)
  after_results
  rfl

end Cert.ReferenceIdeal.Mid

end
-- ==== Proof.BridgeBase.lean ====
/-
  The two programs meet.

  Both programs route the tokens with the same integer operations of the expert ids (flattened ids, one-hot table,
  running count, slot = count at the pair's own expert less one, validity mask, scatter indices), write the token
  rows into zeroed per-expert buffers with the same scatter, and bring the rows back with the same gather, mask,
  routing weights and sum over the k choices. They differ in three places, none of which changes a value on the
  extended reals: the kernel's program narrows the token rows and the three weight arrays to bf16 (a change of float
  format is the identity) and zeroes its buffers with the bf16 word of zero (the extended real 0, as the f32 word
  of zero is); and it computes the expert MLP one expert per grid point, where the reference uses batched products —
  each is the expert MLP of the same four arrays, entry by entry.

  So: equal expert ids give equal slots, masks and indices; with equal token rows, equal per-expert buffers; with
  equal weights, equal expert outputs; with equal routing weights, equal results.
-/
import proofs.«162994_j21638045237561_1_alg».proof.Proof.Gen.KernelIdeal.Frame
import proofs.«162994_j21638045237561_1_alg».proof.Proof.RefMid
import Idealize.ShloMosaic.PureOps.IdealRules

set_option maxRecDepth 16384

noncomputable section

namespace Cert.Bridge

open Idealize.ShloMosaic Idealize.ShloMosaic.StableHlo Idealize.ShloMosaic.TcCoe Idealize.SL.Sem

/-- Finish reading the operations' results where the one-pass reading stops (inside a concatenate's list of pieces). -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- The kernel program's host operations before the region, as the generated frame folds them. -/
abbrev kPre : List (HloOp Cert.KernelIdeal.τ Cert.KernelIdeal.sig (Elt Ideal)) :=
  List.flatten [Cert.KernelIdeal.Gen.hostOps0, Cert.KernelIdeal.Gen.hostOps0_1, Cert.KernelIdeal.Gen.hostOps0_2, Cert.KernelIdeal.Gen.hostOps0_3]

/-- A narrowing of float format is the identity on the extended reals. -/
theorem truncf_id {s : Shape} {φ ψ : FTy} (a : FVec Ideal s φ) (h : ψ.bits < φ.bits) :
    (truncf ψ a h : s.Idx → EReal) = a := rfl

/-- The bf16 word of zero and the f32 word of zero are both the extended real 0. -/
theorem zero_bf16_f32 : Ideal.ofBits .bf16 0x0000#16 = Ideal.ofBits .f32 0x00000000#32 :=
  (IdealRules.sign_bit.ideal_zero .bf16).trans (IdealRules.sign_bit.ideal_zero .f32).symm

/-- A scatter that keeps the update: equal operands, equal results (same indices, same updates). -/
theorem scatter_set_congr {s si u : Shape} {w : Nat} (d d' : ScatterDims s si u) (hd : d = d') (x x' : s.Idx → EReal)
    (hx : x = x') (idx : IVec si w) (upd : u.Idx → EReal) :
    Host.scatter d (fun _ b => b) x idx upd = Host.scatter d' (fun _ b => b) x' idx upd := by
  subst hd hx; rfl

end Cert.Bridge

end
-- ==== Proof.BridgeIds.lean ====
/-
  The routing stretch, leaf by leaf: from equal expert ids both programs compute equal flattened ids, slots and
  validity masks; the kernel program's narrowed weight arrays are the weight arrays; and the stretches leave alone
  what they do not write.
-/
import proofs.«162994_j21638045237561_1_alg».proof.Proof.BridgeBase

set_option maxRecDepth 16384

noncomputable section

namespace Cert.Bridge

open Idealize.ShloMosaic Idealize.ShloMosaic.StableHlo Idealize.ShloMosaic.TcCoe Idealize.SL.Sem

section Pre

variable (Vk : Valuation Cert.KernelIdeal.τ Cert.KernelIdeal.sig (Elt Ideal)) (Vr : Valuation Cert.ReferenceIdeal.τ Cert.ReferenceIdeal.sig (Elt Ideal))

set_option maxHeartbeats 4000000 in
/-- Equal expert ids: equal flattened ids. -/
theorem pre_ids (h2 : Vk (Proc.devRef .tc Cert.KernelIdeal.main_arg2) = Vr (Proc.devRef .tc Cert.ReferenceIdeal.main_arg2)) :
    after kPre Vk (Proc.devRef .tc Cert.KernelIdeal.main_v0) = after Cert.ReferenceIdeal.HandRun.preOps Vr (Proc.devRef .tc Cert.ReferenceIdeal.main_v0) := by
  simp only [kPre, Cert.KernelIdeal.Gen.hostOps0, Cert.KernelIdeal.Gen.hostOps0_1, Cert.KernelIdeal.Gen.hostOps0_2, Cert.KernelIdeal.Gen.hostOps0_3, Cert.ReferenceIdeal.HandRun.preOps,
    List.flatten_cons, List.flatten_nil, List.append_nil, List.cons_append, List.nil_append]
  after_results_simp
  rw [h2]
  rfl

set_option maxHeartbeats 4000000 in
/-- Equal expert ids: equal slots. -/
theorem pre_pos (h2 : Vk (Proc.devRef .tc Cert.KernelIdeal.main_arg2) = Vr (Proc.devRef .tc Cert.ReferenceIdeal.main_arg2)) :
    after kPre Vk (Proc.devRef .tc Cert.KernelIdeal.main_v8) = after Cert.ReferenceIdeal.HandRun.preOps Vr (Proc.devRef .tc Cert.ReferenceIdeal.main_v8) := by
  simp only [kPre, Cert.KernelIdeal.Gen.hostOps0, Cert.KernelIdeal.Gen.hostOps0_1, Cert.KernelIdeal.Gen.hostOps0_2, Cert.KernelIdeal.Gen.hostOps0_3, Cert.ReferenceIdeal.HandRun.preOps,
    List.flatten_cons, List.flatten_nil, List.append_nil, List.cons_append, List.nil_append]
  after_results_simp
  rw [h2]
  rfl

set_option maxHeartbeats 4000000 in
/-- Equal expert ids: equal validity masks. -/
theorem pre_valid (h2 : Vk (Proc.devRef .tc Cert.KernelIdeal.main_arg2) = Vr (Proc.devRef .tc Cert.ReferenceIdeal.main_arg2)) :
    after kPre Vk (Proc.devRef .tc Cert.KernelIdeal.main_v10) = after Cert.ReferenceIdeal.HandRun.preOps Vr (Proc.devRef .tc Cert.ReferenceIdeal.main_v10) := by
  simp only [kPre, Cert.KernelIdeal.Gen.hostOps0, Cert.KernelIdeal.Gen.hostOps0_1, Cert.KernelIdeal.Gen.hostOps0_2, Cert.KernelIdeal.Gen.hostOps0_3, Cert.ReferenceIdeal.HandRun.preOps,
    List.flatten_cons, List.flatten_nil, List.append_nil, List.cons_append, List.nil_append]
  after_results_simp
  rw [h2]
  rfl

set_option maxHeartbeats 4000000 in
/-- The narrowed gate weights are the gate weights. -/
theorem pre_wg : (after kPre Vk (Proc.devRef .tc Cert.KernelIdeal.main_v27) : (⟨3, ![64, 768, 2048]⟩ : Shape).Idx → EReal)
      = Vk (Proc.devRef .tc Cert.KernelIdeal.main_arg3) := by
  simp only [kPre, Cert.KernelIdeal.Gen.hostOps0, Cert.KernelIdeal.Gen.hostOps0_1, Cert.KernelIdeal.Gen.hostOps0_2, Cert.KernelIdeal.Gen.hostOps0_3, Cert.ReferenceIdeal.HandRun.preOps,
    List.flatten_cons, List.flatten_nil, List.append_nil, List.cons_append, List.nil_append]
  after_results_simp
  rfl

set_option maxHeartbeats 4000000 in
/-- The narrowed up weights are the up weights. -/
theorem pre_wu : (after kPre Vk (Proc.devRef .tc Cert.KernelIdeal.main_v28) : (⟨3, ![64, 768, 2048]⟩ : Shape).Idx → EReal)
      = Vk (Proc.devRef .tc Cert.KernelIdeal.main_arg4) := by
  simp only [kPre, Cert.KernelIdeal.Gen.hostOps0, Cert.KernelIdeal.Gen.hostOps0_1, Cert.KernelIdeal.Gen.hostOps0_2, Cert.KernelIdeal.Gen.hostOps0_3, Cert.ReferenceIdeal.HandRun.preOps,
    List.flatten_cons, List.flatten_nil, List.append_nil, List.cons_append, List.nil_append]
  after_results_simp
  rfl

set_option maxHeartbeats 4000000 in
/-- The narrowed down weights are the down weights. -/
theorem pre_wd : (after kPre Vk (Proc.devRef .tc Cert.KernelIdeal.main_v29) : (⟨3, ![64, 2048, 768]⟩ : Shape).Idx → EReal)
      = Vk (Proc.devRef .tc Cert.KernelIdeal.main_arg5) := by
  simp only [kPre, Cert.KernelIdeal.Gen.hostOps0, Cert.KernelIdeal.Gen.hostOps0_1, Cert.KernelIdeal.Gen.hostOps0_2, Cert.KernelIdeal.Gen.hostOps0_3, Cert.ReferenceIdeal.HandRun.preOps,
    List.flatten_cons, List.flatten_nil, List.append_nil, List.cons_append, List.nil_append]
  after_results_simp
  rfl

set_option maxHeartbeats 4000000 in
/-- The kernel program's routing stretch leaves the routing weights alone. -/
theorem kpre_arg1 : after kPre Vk (Proc.devRef .tc Cert.KernelIdeal.main_arg1) = Vk (Proc.devRef .tc Cert.KernelIdeal.main_arg1) := by
  simp only [kPre, Cert.KernelIdeal.Gen.hostOps0, Cert.KernelIdeal.Gen.hostOps0_1, Cert.KernelIdeal.Gen.hostOps0_2, Cert.KernelIdeal.Gen.hostOps0_3, Cert.ReferenceIdeal.HandRun.preOps,
    List.flatten_cons, List.flatten_nil, List.append_nil, List.cons_append, List.nil_append]
  after_results_simp

set_option maxHeartbeats 4000000 in
/-- The reference's routing stretch leaves the routing weights and the three weight arrays alone. -/
theorem rpre_args :
    after Cert.ReferenceIdeal.HandRun.preOps Vr (Proc.devRef .tc Cert.ReferenceIdeal.main_arg1) = Vr (Proc.devRef .tc Cert.ReferenceIdeal.main_arg1)
    ∧ after Cert.ReferenceIdeal.HandRun.preOps Vr (Proc.devRef .tc Cert.ReferenceIdeal.main_arg3) = Vr (Proc.devRef .tc Cert.ReferenceIdeal.main_arg3)
    ∧ after Cert.ReferenceIdeal.HandRun.preOps Vr (Proc.devRef .tc Cert.ReferenceIdeal.main_arg4) = Vr (Proc.devRef .tc Cert.ReferenceIdeal.main_arg4)
    ∧ after Cert.ReferenceIdeal.HandRun.preOps Vr (Proc.devRef .tc Cert.ReferenceIdeal.main_arg5) = Vr (Proc.devRef .tc Cert.ReferenceIdeal.main_arg5) := by
  refine ⟨?_, ?_, ?_, ?_⟩ <;> (simp only [Cert.ReferenceIdeal.HandRun.preOps]; after_results_simp)

set_option maxHeartbeats 4000000 in
/-- The reference's expert MLP stretch leaves the ids, the slots, the mask and the routing weights alone. -/
theorem rmid_keeps :
    after Cert.ReferenceIdeal.HandRun.midOps Vr (Proc.devRef .tc Cert.ReferenceIdeal.main_v0) = Vr (Proc.devRef .tc Cert.ReferenceIdeal.main_v0)
    ∧ after Cert.ReferenceIdeal.HandRun.midOps Vr (Proc.devRef .tc Cert.ReferenceIdeal.main_v8) = Vr (Proc.devRef .tc Cert.ReferenceIdeal.main_v8)
    ∧ after Cert.ReferenceIdeal.HandRun.midOps Vr (Proc.devRef .tc Cert.ReferenceIdeal.main_v10) = Vr (Proc.devRef .tc Cert.ReferenceIdeal.main_v10)
    ∧ after Cert.ReferenceIdeal.HandRun.midOps Vr (Proc.devRef .tc Cert.ReferenceIdeal.main_arg1) = Vr (Proc.devRef .tc Cert.ReferenceIdeal.main_arg1) := by
  refine ⟨?_, ?_, ?_, ?_⟩ <;> (simp only [Cert.ReferenceIdeal.HandRun.midOps]; after_results_simp)

end Pre

end Cert.Bridge

end
-- ==== Proof.BridgeBuf.lean ====
/-
  The per-expert buffers: both programs scatter the same token rows at the same (expert, slot) pairs into a zeroed
  array, the kernel program after narrowing the rows to bf16 and from the bf16 word of zero; on the extended reals
  the narrowing is the identity and both words of zero are 0, so the buffers are equal.
-/
import proofs.«162994_j21638045237561_1_alg».proof.Proof.BridgeBase

set_option maxRecDepth 16384

noncomputable section

namespace Cert.Bridge

open Idealize.ShloMosaic Idealize.ShloMosaic.StableHlo Idealize.ShloMosaic.TcCoe Idealize.SL.Sem

section Pre

variable (Vk : Valuation Cert.KernelIdeal.τ Cert.KernelIdeal.sig (Elt Ideal)) (Vr : Valuation Cert.ReferenceIdeal.τ Cert.ReferenceIdeal.sig (Elt Ideal))

set_option maxHeartbeats 4000000 in
/-- Equal token rows and expert ids: equal per-expert buffers. -/
theorem pre_buf (h0 : Vk (Proc.devRef .tc Cert.KernelIdeal.main_arg0) = Vr (Proc.devRef .tc Cert.ReferenceIdeal.main_arg0))
    (h2 : Vk (Proc.devRef .tc Cert.KernelIdeal.main_arg2) = Vr (Proc.devRef .tc Cert.ReferenceIdeal.main_arg2)) :
    (after kPre Vk (Proc.devRef .tc Cert.KernelIdeal.main_v26) : (⟨3, ![64, 256, 2048]⟩ : Shape).Idx → EReal)
      = after Cert.ReferenceIdeal.HandRun.preOps Vr (Proc.devRef .tc Cert.ReferenceIdeal.main_v25) := by
  simp only [kPre, Cert.KernelIdeal.Gen.hostOps0, Cert.KernelIdeal.Gen.hostOps0_1, Cert.KernelIdeal.Gen.hostOps0_2, Cert.KernelIdeal.Gen.hostOps0_3, Cert.ReferenceIdeal.HandRun.preOps,
    List.flatten_cons, List.flatten_nil, List.append_nil, List.cons_append, List.nil_append]
  after_results_simp
  results_rw
  rw [h0, h2]
  exact scatter_set_congr _ _ rfl _ _ (funext fun _ => zero_bf16_f32) _ _

end Pre

end Cert.Bridge

end
-- ==== Proof.BridgeTail.lean ====
/-
  The combine stretch: both programs gather each pair's row from the experts' outputs at the same (expert, slot)
  indices, mask it, weight it and sum over the k choices with the same operations; equal operands give equal
  results.
-/
import proofs.«162994_j21638045237561_1_alg».proof.Proof.BridgeBase

set_option maxRecDepth 16384

noncomputable section

namespace Cert.Bridge

open Idealize.ShloMosaic Idealize.ShloMosaic.StableHlo Idealize.ShloMosaic.TcCoe Idealize.SL.Sem

section Pre

variable (Vk : Valuation Cert.KernelIdeal.τ Cert.KernelIdeal.sig (Elt Ideal)) (Vr : Valuation Cert.ReferenceIdeal.τ Cert.ReferenceIdeal.sig (Elt Ideal))

set_option maxHeartbeats 4000000 in
/-- The combine stretch: equal expert outputs, ids, slots, masks and routing weights give equal results. -/
theorem tail_congr
    (hy : (Vk (Proc.devRef .tc Cert.KernelIdeal.main_v30) : (⟨3, ![64, 256, 2048]⟩ : Shape).Idx → EReal) = Vr (Proc.devRef .tc Cert.ReferenceIdeal.main_v30))
    (h0 : Vk (Proc.devRef .tc Cert.KernelIdeal.main_v0) = Vr (Proc.devRef .tc Cert.ReferenceIdeal.main_v0))
    (h8 : Vk (Proc.devRef .tc Cert.KernelIdeal.main_v8) = Vr (Proc.devRef .tc Cert.ReferenceIdeal.main_v8))
    (h10 : Vk (Proc.devRef .tc Cert.KernelIdeal.main_v10) = Vr (Proc.devRef .tc Cert.ReferenceIdeal.main_v10))
    (h1 : Vk (Proc.devRef .tc Cert.KernelIdeal.main_arg1) = Vr (Proc.devRef .tc Cert.ReferenceIdeal.main_arg1)) :
    after Cert.KernelIdeal.Gen.hostOps1 Vk (Proc.devRef .tc Cert.KernelIdeal.main_v53) = after Cert.ReferenceIdeal.HandRun.tailOps Vr (Proc.devRef .tc Cert.ReferenceIdeal.main_v53) := by
  simp only [Cert.KernelIdeal.Gen.hostOps1, Cert.ReferenceIdeal.HandRun.tailOps]
  after_results_simp
  results_rw
  rw [hy, h0, h8, h10, h1]
  rfl

end Pre

end Cert.Bridge

end
-- ==== Proof.LibTransDot.lean ====
/-
  A matrix product with the right operand transposed, read at an index, over the extended reals.

  For the dimension numbers of an M×K by N×K product (contract the left operand's second axis with the
  right operand's second axis; no batch axes: lhs · rhsᵀ) the entry (i, j) of the product is the sum over k of
  lhs (i, k) · rhs (j, k): stated once for a `tpu.matmul` accumulating into the zero splat and once for the
  host's `dot_general`, for any extents M, K, N. The contraction index of such a product has one axis of
  extent K, and the sum over it is re-indexed by that coordinate.
-/
import Idealize.ShloMosaic.Lib.ValueIdx
import Idealize.ShloMosaic.PureOps.Ideal.Laws

noncomputable section

open scoped BigOperators

namespace Idealize.ShloMosaic.TransDot

open Idealize.ShloMosaic Idealize.ShloMosaic.ValueIdx

variable {M K N : Nat}

/-- The left operand's row coordinate is the result's row coordinate. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction coordinate. -/
theorem lhs_col (j : (⟨2, ![M, N]⟩ : Shape).Idx) (q : (DotDims.transposedRhs M K N).contr.Idx) :
    ((DotDims.transposedRhs M K N).lhsIdx j q 1).val = (q ⟨0, show 0 < (DotDims.transposedRhs M K N).contr.rank from Nat.one_pos⟩).val :=
  (DotDims.transposedRhs M K N).lhsIdx_val_of_single rfl j q

/-- The right operand's row coordinate is the result's column coordinate. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction coordinate. -/
theorem rhs_col (j : (⟨2, ![M, N]⟩ : Shape).Idx) (q : (DotDims.transposedRhs M K N).contr.Idx) :
    ((DotDims.transposedRhs M K N).rhsIdx j q 1).val = (q ⟨0, show 0 < (DotDims.transposedRhs M K N).contr.rank from Nat.one_pos⟩).val :=
  (DotDims.transposedRhs M K N).rhsIdx_val_of_single rfl j q

/-- The sum over the contraction index is the sum over k of lhs (i, k) · rhs (j, k). -/
theorem sum_contr (lhs : (⟨2, ![M, K]⟩ : Shape).Idx → EReal) (rhs : (⟨2, ![N, K]⟩ : Shape).Idx → EReal)
    (i : Fin M) (j : Fin N) :
    (∑ q : (DotDims.transposedRhs M K N).contr.Idx,
        lhs ((DotDims.transposedRhs M K N).lhsIdx (ix2 i j) q) * rhs ((DotDims.transposedRhs M K N).rhsIdx (ix2 i j) q))
      = ∑ k : Fin K, lhs (ix2 i k) * rhs (ix2 j k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => exact lhs_row _ _
      | ⟨1, _⟩ => exact (lhs_col _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => exact rhs_row _ _
      | ⟨1, _⟩ => exact (rhs_col _ _).trans hk)
  rw [el, er]

/-- A `tpu.matmul` of these dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) :=
  (Ideal.matmul_constant_zero_apply (DotDims.transposedRhs M K N) prec lhs rhs (ix2 i j)).trans (sum_contr lhs rhs i j)

/-- The host's `dot_general` of these dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (i : Fin M) (j : Fin N) :
    FloatOps.dotGeneral (DotDims.transposedRhs M K N) prec sched lhs rhs (ix2 i j)
      = ∑ k : Fin K, lhs (ix2 i k) * rhs (ix2 j k) :=
  (Ideal.dotGeneral_apply (DotDims.transposedRhs M K N) prec sched lhs rhs (ix2 i j)).trans (sum_contr lhs rhs i j)

end Idealize.ShloMosaic.TransDot

end
-- ==== Proof.KernelPayload.lean ====
/-
  What one grid point of the kernel computes, read at an index.

  At expert e the body holds four blocks: x0 = the expert's buffer [1, 256, 2048], x1, x2 = its gate and up
  weights [1, 768, 2048], x3 = its down weights [1, 2048, 768]. It drops the unit axis, forms g = x0 · x1ᵀ and
  u = x0 · x2ᵀ (two products with the right operand transposed, each into a zero accumulator), the gated unit
  (g · logistic g) · u, its product with x3ᵀ, and puts the unit axis back. A change of float format is the
  identity on the extended reals. So entry (0, r, h) of what it stores is
  Σ_i ((g(r,i) · logistic g(r,i)) · u(r,i)) · x3(0, h, i) with g(r,i) = Σ_k x0(0, r, k) · x1(0, i, k): when the
  four blocks are expert e's slabs of four arrays, this is the expert MLP's entry (e, r, h) of those arrays.
-/
import proofs.«162994_j21638045237561_1_alg».proof.Proof.Gen.KernelIdeal.Skeleton
import proofs.«162994_j21638045237561_1_alg».proof.Proof.LibTransDot
import proofs.«162994_j21638045237561_1_alg».proof.Proof.Expert
import Idealize.ShloMosaic.Lib.ValueLayout

noncomputable section

open scoped BigOperators

namespace Cert.KernelIdeal.Pay

open Idealize.ShloMosaic Idealize.ShloMosaic.ValueIdx Cert.KernelIdeal Cert.KernelIdeal.Gen

/-- A product with the right operand transposed into the zero accumulator, for dimension numbers that are those of
    lhs · rhsᵀ. -/
theorem matmulT_apply {M K N : Nat} {φ₁ φ₂ : FTy} (d : DotDims ⟨2, ![M, K]⟩ ⟨2, ![N, K]⟩ ⟨2, ![M, N]⟩)
    (hd : d = DotDims.transposedRhs M K N) (lhs : FVec Ideal ⟨2, ![M, K]⟩ φ₁) (rhs : FVec Ideal ⟨2, ![N, K]⟩ φ₂)
    (i : Fin M) (j : Fin N) :
    matmul d none lhs rhs (constant ⟨2, ![M, N]⟩ .f32 0x00000000#32) (ix2 i j) = ∑ k : Fin K, lhs (ix2 i k) * rhs (ix2 j k) := by
  subst hd
  exact TransDot.matmul_zero_apply none lhs rhs i j

/-- A block row against a block weight row. -/
def projB (x0 : Vec Ideal S1x256x2048 .bf16) (w : Vec Ideal S1x768x2048 .bf16) (r : Fin 256) (i : Fin 768) : EReal :=
  ∑ k : Fin 2048, x0 (ix3 (0 : Fin 1) r k) * w (ix3 (0 : Fin 1) i k)

/-- The first two products of the body at (r, i). -/
theorem proj_apply (x0 : Vec Ideal S1x256x2048 .bf16) (w : Vec Ideal S1x768x2048 .bf16) (r : Fin 256) (i : Fin 768) :
    matmul (F := Ideal) (φ₁ := .bf16) (φ₂ := .bf16) dot_S256x2048_S768x2048_S256x768_1_1_0_0_n_n none
        (shapeCast S256x2048 x0 shapeCasts_S1x256x2048_S256x2048) (shapeCast S768x2048 w shapeCasts_S1x768x2048_S768x2048)
        (constant (F := Ideal) S256x768 .f32 0x00000000#32) (ix2 r i)
      = projB x0 w r i := by
  refine (matmulT_apply (M := 256) (K := 2048) (N := 768) _ rfl _ _ r i).trans ?_
  refine Finset.sum_congr rfl fun k _ => ?_
  exact congr (congrArg HMul.hMul (shapeCast_1ab_ab_apply x0 _ r k)) (shapeCast_1ab_ab_apply w _ i k)

/-- The stored block at (0, r, h). -/
theorem pay_apply (x0 : Vec Ideal S1x256x2048 .bf16) (x1 x2 : Vec Ideal S1x768x2048 .bf16) (x3 : Vec Ideal S1x2048x768 .bf16)
    (r : Fin 256) (h : Fin 2048) :
    k0_pay1 (F := Ideal) x0 x1 x2 x3 (ix3 (0 : Fin 1) r h)
      = ∑ i : Fin 768, ((projB x0 x1 r i * Ideal.logistic (projB x0 x1 r i)) * projB x0 x2 r i) * x3 (ix3 (0 : Fin 1) h i) := by
  unfold k0_pay1
  refine (shapeCast_ab_1ab_apply _ _ (0 : Fin 1) r h).trans ?_
  refine (matmulT_apply (M := 256) (K := 768) (N := 2048) _ rfl _ _ r h).trans ?_
  refine Finset.sum_congr rfl fun i _ => ?_
  refine congr (congrArg HMul.hMul ?_) (shapeCast_1ab_ab_apply x3 _ h i)
  show (_ * Ideal.logistic _) * _ = _
  rw [proj_apply x0 x1 r i, proj_apply x0 x2 r i]

/-- When the four blocks are expert e's slabs of four arrays, the stored block's entry (0, r, h) is the expert
    MLP's entry (e, r, h). -/
theorem pay_eq_expert (A : (⟨3, ![64, 256, 2048]⟩ : Shape).Idx → EReal) (Wg Wu : (⟨3, ![64, 768, 2048]⟩ : Shape).Idx → EReal)
    (Wd : (⟨3, ![64, 2048, 768]⟩ : Shape).Idx → EReal) (e : Fin 64)
    (x0 : Vec Ideal S1x256x2048 .bf16) (x1 x2 : Vec Ideal S1x768x2048 .bf16) (x3 : Vec Ideal S1x2048x768 .bf16)
    (h0 : ∀ (r : Fin 256) (k : Fin 2048), x0 (ix3 (0 : Fin 1) r k) = A (ix3 e r k))
    (h1 : ∀ (i : Fin 768) (k : Fin 2048), x1 (ix3 (0 : Fin 1) i k) = Wg (ix3 e i k))
    (h2 : ∀ (i : Fin 768) (k : Fin 2048), x2 (ix3 (0 : Fin 1) i k) = Wu (ix3 e i k))
    (h3 : ∀ (h : Fin 2048) (i : Fin 768), x3 (ix3 (0 : Fin 1) h i) = Wd (ix3 e h i))
    (r : Fin 256) (h : Fin 2048) :
    k0_pay1 (F := Ideal) x0 x1 x2 x3 (ix3 (0 : Fin 1) r h) = Cert.MoE.outAt A Wg Wu Wd e r h := by
  have pg : ∀ i, projB x0 x1 r i = Cert.MoE.proj A Wg e r i := fun i =>
    Finset.sum_congr rfl fun k _ => by rw [h0 r k, h1 i k]
  have pu : ∀ i, projB x0 x2 r i = Cert.MoE.proj A Wu e r i := fun i =>
    Finset.sum_congr rfl fun k _ => by rw [h0 r k, h2 i k]
  rw [pay_apply]
  unfold Cert.MoE.outAt Cert.MoE.hidden
  refine Finset.sum_congr rfl fun i _ => ?_
  rw [pg i, pu i, h3 h i]

end Cert.KernelIdeal.Pay

end
-- ==== Proof.KernelBlocks.lean ====
/-
  From grid points to the whole array.

  The grid has one point per expert. At point t every window's block is the slab t of its array: rows
  (t, ·, ·) of the per-expert buffers, of the gate, up and down weights, and of the output. So what point t writes
  back is slab t of the expert MLP of the four arrays as the region finds them; the 64 slabs tile the output array,
  hence after the run the output array is the expert MLP of those arrays, entry by entry.
-/
import proofs.«162994_j21638045237561_1_alg».proof.Proof.Gen.KernelIdeal.Frame
import proofs.«162994_j21638045237561_1_alg».proof.Proof.KernelPayload
import Idealize.ShloMosaic.Lib.Pipeline.Value

set_option maxRecDepth 16384

noncomputable section

open scoped BigOperators

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz3 : (![0, 0, 0] : Fin 3 → Nat) = fun _ => 0 := funext fun a => by fin_cases a <;> rfl

/-- Every window's block index at point t is (t, 0, 0): decided over the 64 points. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- Point t as an expert. -/
def expertOf (t : Fin cfg0.N) : Fin 64 := ⟨t.val, by have h := t.isLt; have hN : cfg0.N = 64 := N_0; omega⟩

/-! The blocks at point t are slabs t of the arrays they are blocks of, whatever those arrays hold. -/

/-- The buffer block at point t is slab t of the per-expert buffers. -/
theorem read0 (c : Dev nD) (A : Buf (Elt Ideal) ((cfg0.win 0).arr.view.loc (c.tc : Thread nD τ))) (t : Fin cfg0.N)
    (p : Fin 256) (q : Fin 2048) :
    ((cfg0.win 0).blk t).view.read (Elt Ideal) A (ix3 (0 : Fin 1) p q) = A (ix3 (expertOf t) p q) := by
  obtain ⟨⟨e0, e1, e2⟩, -⟩ := idx_facts t
  show A (((cfg0.win 0).blk t).view.emb (ix3 (0 : Fin 1) p q)) = A (ix3 (expertOf t) p q)
  refine congrArg A ?_
  funext a; apply Fin.ext
  match a with
  | ⟨0, _⟩ => show win0_0.index t (0 : Fin 3) * 1 + 1 * 0 = t.val; omega
  | ⟨1, _⟩ => show win0_0.index t (1 : Fin 3) * 256 + 1 * p.val = p.val; omega
  | ⟨2, _⟩ => show win0_0.index t (2 : Fin 3) * 2048 + 1 * q.val = q.val; omega

/-- The gate block at point t is slab t of the gate weights. -/
theorem read1 (c : Dev nD) (A : Buf (Elt Ideal) ((cfg0.win 1).arr.view.loc (c.tc : Thread nD τ))) (t : Fin cfg0.N)
    (p : Fin 768) (q : Fin 2048) :
    ((cfg0.win 1).blk t).view.read (Elt Ideal) A (ix3 (0 : Fin 1) p q) = A (ix3 (expertOf t) p q) := by
  obtain ⟨-, ⟨e0, e1, e2⟩, -⟩ := idx_facts t
  show A (((cfg0.win 1).blk t).view.emb (ix3 (0 : Fin 1) p q)) = A (ix3 (expertOf t) p q)
  refine congrArg A ?_
  funext a; apply Fin.ext
  match a with
  | ⟨0, _⟩ => show win0_1.index t (0 : Fin 3) * 1 + 1 * 0 = t.val; omega
  | ⟨1, _⟩ => show win0_1.index t (1 : Fin 3) * 768 + 1 * p.val = p.val; omega
  | ⟨2, _⟩ => show win0_1.index t (2 : Fin 3) * 2048 + 1 * q.val = q.val; omega

/-- The up block at point t is slab t of the up weights. -/
theorem read2 (c : Dev nD) (A : Buf (Elt Ideal) ((cfg0.win 2).arr.view.loc (c.tc : Thread nD τ))) (t : Fin cfg0.N)
    (p : Fin 768) (q : Fin 2048) :
    ((cfg0.win 2).blk t).view.read (Elt Ideal) A (ix3 (0 : Fin 1) p q) = A (ix3 (expertOf t) p q) := by
  obtain ⟨-, -, ⟨e0, e1, e2⟩, -⟩ := idx_facts t
  show A (((cfg0.win 2).blk t).view.emb (ix3 (0 : Fin 1) p q)) = A (ix3 (expertOf t) p q)
  refine congrArg A ?_
  funext a; apply Fin.ext
  match a with
  | ⟨0, _⟩ => show win0_2.index t (0 : Fin 3) * 1 + 1 * 0 = t.val; omega
  | ⟨1, _⟩ => show win0_2.index t (1 : Fin 3) * 768 + 1 * p.val = p.val; omega
  | ⟨2, _⟩ => show win0_2.index t (2 : Fin 3) * 2048 + 1 * q.val = q.val; omega

/-- The down block at point t is slab t of the down weights. -/
theorem read3 (c : Dev nD) (A : Buf (Elt Ideal) ((cfg0.win 3).arr.view.loc (c.tc : Thread nD τ))) (t : Fin cfg0.N)
    (p : Fin 2048) (q : Fin 768) :
    ((cfg0.win 3).blk t).view.read (Elt Ideal) A (ix3 (0 : Fin 1) p q) = A (ix3 (expertOf t) p q) := by
  obtain ⟨-, -, -, ⟨e0, e1, e2⟩, -⟩ := idx_facts t
  show A (((cfg0.win 3).blk t).view.emb (ix3 (0 : Fin 1) p q)) = A (ix3 (expertOf t) p q)
  refine congrArg A ?_
  funext a; apply Fin.ext
  match a with
  | ⟨0, _⟩ => show win0_3.index t (0 : Fin 3) * 1 + 1 * 0 = t.val; omega
  | ⟨1, _⟩ => show win0_3.index t (1 : Fin 3) * 2048 + 1 * p.val = p.val; omega
  | ⟨2, _⟩ => show win0_3.index t (2 : Fin 3) * 768 + 1 * q.val = q.val; omega

/-- An index of the output block from its row and column (the leading coordinate is 0). -/
theorem eq_ix3_blk (j : S1x256x2048.Idx) :
    j = ix3 (0 : Fin 1) (⟨(j 1).val, (j 1).isLt⟩ : Fin 256) (⟨(j 2).val, (j 2).isLt⟩ : Fin 2048) := by
  have hj0 : (j 0).val = 0 := by have h0 : (j 0).val < 1 := (j 0).isLt; omega
  funext a; apply Fin.ext
  match a with
  | ⟨0, _⟩ => exact hj0
  | ⟨1, _⟩ => rfl
  | ⟨2, _⟩ => rfl

/-- Entry (0, r, h) of the output block at point t sits at (t, r, h) of the output array. -/
theorem emb4 (t : Fin cfg0.N) (j : S1x256x2048.Idx) :
    ((cfg0.win 4).blk t).view.emb j
      = ix3 (expertOf t) (⟨(j 1).val, (j 1).isLt⟩ : Fin 256) (⟨(j 2).val, (j 2).isLt⟩ : Fin 2048) := by
  obtain ⟨-, -, -, -, ⟨e0, e1, e2⟩⟩ := idx_facts t
  have hj0 : (j 0).val = 0 := by have h0 : (j 0).val < 1 := (j 0).isLt; omega
  funext a; apply Fin.ext
  match a with
  | ⟨0, _⟩ => show win0_4.index t (0 : Fin 3) * 1 + 1 * (j 0).val = t.val; omega
  | ⟨1, _⟩ => show win0_4.index t (1 : Fin 3) * 256 + 1 * (j 1).val = (j 1).val; omega
  | ⟨2, _⟩ => show win0_4.index t (2 : Fin 3) * 2048 + 1 * (j 2).val = (j 2).val; omega

/-- A staged value that agrees entry by entry with an array read through point t's block is, written back, that
    block of the array. -/
theorem cut_read_of_pointwise (c : Dev nD) (t : Fin cfg0.N) (P : Vec Ideal S1x256x2048 .f32)
    (G : Buf (Elt Ideal) ((cfg0.win 4).arr.view.loc (c.tc : Thread nD τ)))
    (h : ∀ j : S1x256x2048.Idx, P j = G (((cfg0.win 4).blk t).view.emb j)) :
    (cfg0.win 4).cut (grid0.coords t) P = ((cfg0.win 4).blk t).view.read (Elt Ideal) G :=
  funext fun j => h j

section Point

variable (c : Dev nD) (t : Fin cfg0.N)
  (A0 : Buf (Elt Ideal) ((cfg0.win 0).arr.view.loc (c.tc : Thread nD τ)))
  (A1 : Buf (Elt Ideal) ((cfg0.win 1).arr.view.loc (c.tc : Thread nD τ)))
  (A2 : Buf (Elt Ideal) ((cfg0.win 2).arr.view.loc (c.tc : Thread nD τ)))
  (A3 : Buf (Elt Ideal) ((cfg0.win 3).arr.view.loc (c.tc : Thread nD τ)))

/-- The body's result at point t, entry (0, r, h), from the blocks of four arrays: the expert MLP's entry (t, r, h)
    of those arrays. -/
theorem point_entry (r : Fin 256) (h : Fin 2048) :
    k0_pay1 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3) (ix3 (0 : Fin 1) r h)
      = Cert.MoE.outAt A0 A1 A2 A3 (expertOf t) r h :=
  Cert.KernelIdeal.Pay.pay_eq_expert A0 A1 A2 A3 (expertOf t)
    (((cfg0.win 0).blk t).view.read (Elt Ideal) A0) (((cfg0.win 1).blk t).view.read (Elt Ideal) A1)
    (((cfg0.win 2).blk t).view.read (Elt Ideal) A2) (((cfg0.win 3).blk t).view.read (Elt Ideal) A3)
    (read0 c A0 t) (read1 c A1 t) (read2 c A2 t) (read3 c A3 t) r h

/-- What the body leaves in the output's staging buffer at point t, from the blocks of four arrays, is block t of
    the expert MLP of those arrays. -/
theorem block_eq :
    (cfg0.win 4).cut (grid0.coords t)
        (out0_4 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3))
      = ((cfg0.win 4).blk t).view.read (Elt Ideal) (Cert.MoE.expertOut A0 A1 A2 A3) := by
  unfold out0_4
  rw [View.canon_unit_zero hz3]
  simp only [View.ld_unit_zero (S := S1x256x2048) hz3, View.ld_unit_zero (S := S1x768x2048) hz3,
    View.ld_unit_zero (S := S1x2048x768) hz3]
  refine cut_read_of_pointwise c t _ (Cert.MoE.expertOut A0 A1 A2 A3) fun j => ?_
  rw [emb4 t j, Cert.MoE.expertOut_ix3]
  refine Eq.trans (congrArg (k0_pay1 (F := Ideal) (((cfg0.win 0).blk t).view.read (Elt Ideal) A0)
    (((cfg0.win 1).blk t).view.read (Elt Ideal) A1) (((cfg0.win 2).blk t).view.read (Elt Ideal) A2)
    (((cfg0.win 3).blk t).view.read (Elt Ideal) A3)) (eq_ix3_blk j)) ?_
  exact point_entry c t A0 A1 A2 A3 _ _

end Point

/-- An index of the output array is in point t's block iff each coordinate is in the block's range. -/
theorem mem_blk4 (t : Fin cfg0.N) (i : S64x256x2048.Idx) :
    i ∈ ((cfg0.win 4).blk t).view.set ↔ ∀ a : Fin 3, win0_4.index t a * S1x256x2048.size a ≤ (i a).val ∧ (i a).val < win0_4.index t a * S1x256x2048.size a + S1x256x2048.size a := by
  show i ∈ ((View.whole main_v30).slice (win0_4.rect t)).set ↔ _
  rw [View.set_slice_whole, Rect.mem_set_unit]
  exact Iff.rfl

/-- Every index of the output array is in some point's block: entry (e, r, h) in point e's. -/
theorem cover4 (i : S64x256x2048.Idx) :
    ∃ t : Fin cfg0.N, (cfg0.win 4).flush t = true ∧ i ∈ ((cfg0.win 4).blk t).view.set := by
  have hN : cfg0.N = 64 := N_0
  have hi0 : (i 0).val < 64 := (i 0).isLt
  have hi1 : (i 1).val < 256 := (i 1).isLt
  have hi2 : (i 2).val < 2048 := (i 2).isLt
  obtain ⟨t, ht⟩ : ∃ t : Fin cfg0.N, t.val = (i 0).val := ⟨⟨(i 0).val, by omega⟩, rfl⟩
  refine ⟨t, flush0_4 t, ?_⟩
  obtain ⟨-, -, -, -, ⟨e0, e1, e2⟩⟩ := idx_facts t
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

section Final

variable (m : (ℓ : Loc nD τ sig) → Buf (Elt Ideal) ℓ)

/-- The expert MLP of the four arrays the region stages, as the region finds them. -/
abbrev Y (c : Dev nD) : Buf (Elt Ideal) ((cfg0.win 4).arr.view.loc (c.tc : Thread nD τ)) :=
  Cert.MoE.expertOut (V m c (Pipeline.arrRef spec0 0)) (V m c (Pipeline.arrRef spec0 1)) (V m c (Pipeline.arrRef spec0 2))
    (V m c (Pipeline.arrRef spec0 3))

/-- WHAT POINT t WRITES BACK is block t of that array. -/
theorem flushed4_eq (c : Dev nD) (t : Fin cfg0.N) :
    (dats m 0 c).flushed 4 t = ((cfg0.win 4).blk t).view.read (Elt Ideal) (Y m c) := by
  show (cfg0.win 4).cut (grid0.coords t) ((dats m 0 c).after 4 t) = _
  rw [after0_4]
  exact block_eq c t (V m c (Pipeline.arrRef spec0 0)) (V m c (Pipeline.arrRef spec0 1)) (V m c (Pipeline.arrRef spec0 2))
    (V m c (Pipeline.arrRef spec0 3))

/-- THE OUTPUT ARRAY after the run is the expert MLP of the four arrays as the region finds them. -/
theorem final4 (c : Dev nD) : (dats m 0 c).arrAt 4 cfg0.N = Y m c :=
  (dats m 0 c).arrAt_eq_of_cover 4 (Y m c) (fun t _ => flushed4_eq m c t) cover4

end Final

end Cert.KernelIdeal.Blocks

end
-- ==== Proof.Assemble.lean ====
/-
  The assembly: the kernel program's result — the lines after the region folded over the region's exit contents —
  is the reference's result, from memories that agree on the six arguments. Stretch by stretch: equal ids, slots and
  masks; equal per-expert buffers; the same expert MLP of equal arrays (one grid point per expert on one side,
  batched products on the other); the same combine of equal operands.
-/
import proofs.«162994_j21638045237561_1_alg».proof.Proof.BridgeIds
import proofs.«162994_j21638045237561_1_alg».proof.Proof.BridgeBuf
import proofs.«162994_j21638045237561_1_alg».proof.Proof.BridgeTail
import proofs.«162994_j21638045237561_1_alg».proof.Proof.KernelBlocks

set_option maxRecDepth 16384

noncomputable section

namespace Cert.Bridge

open Idealize.ShloMosaic Idealize.ShloMosaic.StableHlo Idealize.ShloMosaic.TcCoe Idealize.SL.Sem

section Assemble

open Idealize.ShloMosaic.Pipeline (Dat)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The kernel program's buffers when the region exits: the region's arrays at what the grid points left, every
    other buffer as the region found it. -/
abbrev kExit : Valuation Cert.KernelIdeal.τ Cert.KernelIdeal.sig (Elt Ideal) :=
  Pipeline.withArrays Cert.KernelIdeal.spec0 c (Cert.KernelIdeal.Gen.V0 m c) (fun w => (Cert.KernelIdeal.Gen.dats m 0 c).arrAt w Cert.KernelIdeal.cfg0.N)

/-- The reference leaves its six arguments as launched. -/
theorem ref_keeps (Vr : Valuation Cert.ReferenceIdeal.τ Cert.ReferenceIdeal.sig (Elt Ideal)) :
    after Cert.ReferenceIdeal.HandRun.tailOps (after Cert.ReferenceIdeal.HandRun.midOps (after Cert.ReferenceIdeal.HandRun.preOps Vr)) (Proc.devRef .tc Cert.ReferenceIdeal.main_arg0) = Vr (Proc.devRef .tc Cert.ReferenceIdeal.main_arg0)
    ∧ after Cert.ReferenceIdeal.HandRun.tailOps (after Cert.ReferenceIdeal.HandRun.midOps (after Cert.ReferenceIdeal.HandRun.preOps Vr)) (Proc.devRef .tc Cert.ReferenceIdeal.main_arg1) = Vr (Proc.devRef .tc Cert.ReferenceIdeal.main_arg1)
    ∧ after Cert.ReferenceIdeal.HandRun.tailOps (after Cert.ReferenceIdeal.HandRun.midOps (after Cert.ReferenceIdeal.HandRun.preOps Vr)) (Proc.devRef .tc Cert.ReferenceIdeal.main_arg2) = Vr (Proc.devRef .tc Cert.ReferenceIdeal.main_arg2)
    ∧ after Cert.ReferenceIdeal.HandRun.tailOps (after Cert.ReferenceIdeal.HandRun.midOps (after Cert.ReferenceIdeal.HandRun.preOps Vr)) (Proc.devRef .tc Cert.ReferenceIdeal.main_arg3) = Vr (Proc.devRef .tc Cert.ReferenceIdeal.main_arg3)
    ∧ after Cert.ReferenceIdeal.HandRun.tailOps (after Cert.ReferenceIdeal.HandRun.midOps (after Cert.ReferenceIdeal.HandRun.preOps Vr)) (Proc.devRef .tc Cert.ReferenceIdeal.main_arg4) = Vr (Proc.devRef .tc Cert.ReferenceIdeal.main_arg4)
    ∧ after Cert.ReferenceIdeal.HandRun.tailOps (after Cert.ReferenceIdeal.HandRun.midOps (after Cert.ReferenceIdeal.HandRun.preOps Vr)) (Proc.devRef .tc Cert.ReferenceIdeal.main_arg5) = Vr (Proc.devRef .tc Cert.ReferenceIdeal.main_arg5) := by
  refine ⟨?_, ?_, ?_, ?_, ?_, ?_⟩ <;>
    (simp only [Cert.ReferenceIdeal.HandRun.tailOps, Cert.ReferenceIdeal.HandRun.midOps, Cert.ReferenceIdeal.HandRun.preOps]; after_results_simp)

/-- The lines after the region, folded over the region's exit contents, are what the frame run's post states. -/
theorem tail_unfold :
    Pipeline.afterTail₀ Cert.KernelIdeal.cfgs (Cert.KernelIdeal.Gen.dats m) 0 (Cert.KernelIdeal.Gen.V0 m) [Cert.KernelIdeal.Gen.hostOps1] c Cert.KernelIdeal.main_v53
      = after Cert.KernelIdeal.Gen.hostOps1 (kExit m c) (Proc.devRef .tc Cert.KernelIdeal.main_v53) := by
  unfold Pipeline.afterTail₀
  rfl

/-- From memories that agree on the six arguments, the kernel program's result is the reference's. -/
theorem result_eq
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    after Cert.KernelIdeal.Gen.hostOps1 (kExit m c) (Proc.devRef .tc Cert.KernelIdeal.main_v53)
      = after Cert.ReferenceIdeal.HandRun.tailOps (after Cert.ReferenceIdeal.HandRun.midOps (after Cert.ReferenceIdeal.HandRun.preOps (launchContents m' c)))
          (Proc.devRef .tc Cert.ReferenceIdeal.main_v53) := by
  have e0 : launchContents m c (Proc.devRef .tc Cert.KernelIdeal.main_arg0) = launchContents m' c (Proc.devRef .tc Cert.ReferenceIdeal.main_arg0) := a0.symm
  have e1 : launchContents m c (Proc.devRef .tc Cert.KernelIdeal.main_arg1) = launchContents m' c (Proc.devRef .tc Cert.ReferenceIdeal.main_arg1) := a1.symm
  have e2 : launchContents m c (Proc.devRef .tc Cert.KernelIdeal.main_arg2) = launchContents m' c (Proc.devRef .tc Cert.ReferenceIdeal.main_arg2) := a2.symm
  have e3 : launchContents m c (Proc.devRef .tc Cert.KernelIdeal.main_arg3) = launchContents m' c (Proc.devRef .tc Cert.ReferenceIdeal.main_arg3) := a3.symm
  have e4 : launchContents m c (Proc.devRef .tc Cert.KernelIdeal.main_arg4) = launchContents m' c (Proc.devRef .tc Cert.ReferenceIdeal.main_arg4) := a4.symm
  have e5 : launchContents m c (Proc.devRef .tc Cert.KernelIdeal.main_arg5) = launchContents m' c (Proc.devRef .tc Cert.ReferenceIdeal.main_arg5) := a5.symm
  -- a buffer that is none of the region's arrays is, at the region's exit, as the routing stretch left it
  have hne : ∀ b : Ref Cert.KernelIdeal.sig .tc, (∀ w, Pipeline.arrRef Cert.KernelIdeal.spec0 w ≠ b) →
      kExit m c (Proc.devRef .tc b) = after kPre (launchContents m c) (Proc.devRef .tc b) :=
    fun b hb => Pipeline.withArrays_of_ne Cert.KernelIdeal.spec0 c (Cert.KernelIdeal.Gen.V0 m c) _ b hb
  have k := rmid_keeps (after Cert.ReferenceIdeal.HandRun.preOps (launchContents m' c))
  have p := rpre_args (launchContents m' c)
  refine tail_congr (kExit m c) _ ?_ ?_ ?_ ?_ ?_
  · -- the experts' outputs
    refine ((Pipeline.withArrays_arr Cert.KernelIdeal.spec0 Cert.KernelIdeal.Gen.launch0.win.arr_inj c (Cert.KernelIdeal.Gen.V0 m c) _ 4).trans
      (Cert.KernelIdeal.Blocks.final4 m c)).trans ?_
    refine Eq.trans ?_ (Cert.ReferenceIdeal.Mid.mid_result _).symm
    have hb : (Cert.KernelIdeal.Gen.V m c (Pipeline.arrRef Cert.KernelIdeal.spec0 0) : (⟨3, ![64, 256, 2048]⟩ : Shape).Idx → EReal)
        = after Cert.ReferenceIdeal.HandRun.preOps (launchContents m' c) (Proc.devRef .tc Cert.ReferenceIdeal.main_v25) :=
      pre_buf (launchContents m c) (launchContents m' c) e0 e2
    have hg : (Cert.KernelIdeal.Gen.V m c (Pipeline.arrRef Cert.KernelIdeal.spec0 1) : (⟨3, ![64, 768, 2048]⟩ : Shape).Idx → EReal)
        = after Cert.ReferenceIdeal.HandRun.preOps (launchContents m' c) (Proc.devRef .tc Cert.ReferenceIdeal.main_arg3) :=
      (pre_wg (launchContents m c)).trans (e3.trans p.2.1.symm)
    have hu : (Cert.KernelIdeal.Gen.V m c (Pipeline.arrRef Cert.KernelIdeal.spec0 2) : (⟨3, ![64, 768, 2048]⟩ : Shape).Idx → EReal)
        = after Cert.ReferenceIdeal.HandRun.preOps (launchContents m' c) (Proc.devRef .tc Cert.ReferenceIdeal.main_arg4) :=
      (pre_wu (launchContents m c)).trans (e4.trans p.2.2.1.symm)
    have hd : (Cert.KernelIdeal.Gen.V m c (Pipeline.arrRef Cert.KernelIdeal.spec0 3) : (⟨3, ![64, 2048, 768]⟩ : Shape).Idx → EReal)
        = after Cert.ReferenceIdeal.HandRun.preOps (launchContents m' c) (Proc.devRef .tc Cert.ReferenceIdeal.main_arg5) :=
      (pre_wd (launchContents m c)).trans (e5.trans p.2.2.2.symm)
    exact congr (congr (congr (congrArg Cert.MoE.expertOut hb) hg) hu) hd
  · exact (hne Cert.KernelIdeal.main_v0 (by decide)).trans ((pre_ids _ _ e2).trans k.1.symm)
  · exact (hne Cert.KernelIdeal.main_v8 (by decide)).trans ((pre_pos _ _ e2).trans k.2.1.symm)
  · exact (hne Cert.KernelIdeal.main_v10 (by decide)).trans ((pre_valid _ _ e2).trans k.2.2.1.symm)
  · exact (hne Cert.KernelIdeal.main_arg1 (by decide)).trans ((kpre_arg1 _).trans (e1.trans (p.1.symm.trans k.2.2.2.symm)))

end Assemble

end Cert.Bridge

end
-- ==== Proof.lean ====
/-
  A mixture-of-experts layer, kernel against reference, over the extended reals.

  Both programs take token rows x : [1024, 2048], routing weights [1024, 8], expert ids [1024, 8] and, for each of
  64 experts, gate and up weights [768, 2048] and down weights [2048, 768]. Each of the 8192 (token, choice) pairs
  gets a slot in its expert's buffer of 256 rows — the running count of pairs sent to that expert so far, less one —
  and its token row is written there; every expert then maps each buffer row r to
      y(r, ·) = Σ_i ((g_i · logistic g_i) · u_i) · wd(·, i),    g_i = Σ_k r_k · wg(i, k),   u_i = Σ_k r_k · wu(i, k);
  each pair's row of y is read back from its (expert, slot), masked by slot < 256, scaled by the pair's routing
  weight and summed over the token's 8 choices.

  The reference does all of it with host operations, the expert step as three batched products and
  g · (1 / (1 + e^(-g))). The kernel's program does the routing and the combine with the same host operations and the
  expert step on a grid of 64 points, one expert each: the point's blocks are the expert's slabs of the four arrays,
  its three products are taken with the right operand transposed into a zero accumulator, and its logistic is one
  operation. It narrows the token rows and the weights to bf16 on the way in. On the extended reals a change of float
  format is the identity, logistic g is 1 / (1 + e^(-g)) with the literal 1.0 read as 1, both words of zero are 0, and a
  product, per expert or batched, is the same sum over the contracted coordinate; both sides multiply in the same
  order, so no law of arithmetic beyond these readings is needed and the inputs' finiteness is never used.

  The proof: the kernel's frame is the generated one, and its run names the output array after the region; that
  array is the expert step of the four staged arrays, slab by slab (the 64 blocks tile it). The reference's run is
  its 82 host operations in order, read in three stretches. The two results are then equal stretch by stretch: equal
  ids, slots, masks; equal buffers; equal expert outputs; equal combines. No operation of the kernel's program is
  rewritten for its reading on the extended reals: that reading is its own text.
-/
import proofs.«162994_j21638045237561_1_alg».proof.Defs
import proofs.«162994_j21638045237561_1_alg».proof.Proof.Gen.Kernel
import proofs.«162994_j21638045237561_1_alg».proof.Proof.Gen.Kernel.Skeleton
import proofs.«162994_j21638045237561_1_alg».proof.Proof.Gen.Kernel.Launch
import proofs.«162994_j21638045237561_1_alg».proof.Proof.Gen.Kernel.Points
import proofs.«162994_j21638045237561_1_alg».proof.Proof.Gen.Kernel.Frame
import proofs.«162994_j21638045237561_1_alg».proof.Proof.Gen.KernelIdeal
import proofs.«162994_j21638045237561_1_alg».proof.Proof.Gen.KernelIdeal.Skeleton
import proofs.«162994_j21638045237561_1_alg».proof.Proof.Gen.KernelIdeal.Launch
import proofs.«162994_j21638045237561_1_alg».proof.Proof.Gen.KernelIdeal.Points
import proofs.«162994_j21638045237561_1_alg».proof.Proof.Gen.KernelIdeal.Frame
import proofs.«162994_j21638045237561_1_alg».proof.Proof.Gen.ReferenceIdeal
import proofs.«162994_j21638045237561_1_alg».proof.Proof.Gen.Pre_finite_inputs
import proofs.«162994_j21638045237561_1_alg».proof.Proof.Assemble
import Idealize.ShloMosaic.Adequacy
import Idealize.ShloMosaic.Init

noncomputable section

namespace Cert.Proof

open Idealize.ShloMosaic Idealize.SL.Sem Idealize.ShloMosaic.StableHlo Idealize.ShloMosaic.TcCoe

/-- The kernel's program as printed runs and leaves its arguments alone. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs — it is a straight line of host operations — and none of them writes an argument. -/
theorem frame_ri : Cert.frame_ReferenceIdeal := fun m ρ _ =>
  (θ_run Cert.ReferenceIdeal.defs _ _).mono (fun r h c =>
    have k := Cert.Bridge.ref_keeps (launchContents m c)
    ⟨(h c Cert.ReferenceIdeal.main_arg0).trans k.1, (h c Cert.ReferenceIdeal.main_arg1).trans k.2.1, (h c Cert.ReferenceIdeal.main_arg2).trans k.2.2.1,
      (h c Cert.ReferenceIdeal.main_arg3).trans k.2.2.2.1, (h c Cert.ReferenceIdeal.main_arg4).trans k.2.2.2.2.1, (h c Cert.ReferenceIdeal.main_arg5).trans k.2.2.2.2.2⟩)
    (Cert.ReferenceIdeal.HandRun.run_all (F := Ideal) m ρ)

/-- No operation of the kernel's program is rewritten for its reading on the extended reals. -/
theorem preserves : Cert.preserves_Kernel_KernelIdeal := trivial

/-- From memories agreeing on the arguments both programs end with the reference's result, their arguments unchanged. -/
theorem algebraic : Cert.algebraic_KernelIdeal_ReferenceIdeal := by
  intro m ρ m' ρ' _ hagree
  refine ⟨fun c => after Cert.ReferenceIdeal.HandRun.tailOps (after Cert.ReferenceIdeal.HandRun.midOps (after Cert.ReferenceIdeal.HandRun.preOps (launchContents m' c)))
    (Proc.devRef .tc Cert.ReferenceIdeal.main_v53), ?_, ?_⟩
  · refine (θ_run Cert.KernelIdeal.defs _ _).mono (fun r h c => ?_) (Cert.KernelIdeal.Gen.run_main m ρ)
    refine ⟨?_, ?_, ?_, ?_, ?_, ?_, ?_⟩
    · exact (((h c).2 Cert.KernelIdeal.main_v53 (Pipeline.mem_restRefs_of Cert.KernelIdeal.main_v53 (by decide) (by decide))).trans
        (Cert.Bridge.tail_unfold m c)).trans
        (Cert.Bridge.result_eq m m' c (hagree c).1 (hagree c).2.1 (hagree c).2.2.1 (hagree c).2.2.2.1 (hagree c).2.2.2.2.1
          (hagree c).2.2.2.2.2)
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
    · exact ((h c).2 Cert.KernelIdeal.main_arg2 (Pipeline.mem_restRefs_of Cert.KernelIdeal.main_arg2 (by decide) (by decide))).trans
        (Cert.KernelIdeal.Gen.W_main_arg2 m (Cert.KernelIdeal.Gen.dats m) c)
    · exact ((h c).2 Cert.KernelIdeal.main_arg3 (Pipeline.mem_restRefs_of Cert.KernelIdeal.main_arg3 (by decide) (by decide))).trans
        (Cert.KernelIdeal.Gen.W_main_arg3 m (Cert.KernelIdeal.Gen.dats m) c)
    · exact ((h c).2 Cert.KernelIdeal.main_arg4 (Pipeline.mem_restRefs_of Cert.KernelIdeal.main_arg4 (by decide) (by decide))).trans
        (Cert.KernelIdeal.Gen.W_main_arg4 m (Cert.KernelIdeal.Gen.dats m) c)
    · exact ((h c).2 Cert.KernelIdeal.main_arg5 (Pipeline.mem_restRefs_of Cert.KernelIdeal.main_arg5 (by decide) (by decide))).trans
        (Cert.KernelIdeal.Gen.W_main_arg5 m (Cert.KernelIdeal.Gen.dats m) c)
  · refine (θ_run Cert.ReferenceIdeal.defs _ _).mono (fun r h c => ?_)
      (Cert.ReferenceIdeal.HandRun.run_all (F := Ideal) m' ρ')
    have k := Cert.Bridge.ref_keeps (launchContents m' c)
    exact ⟨h c Cert.ReferenceIdeal.main_v53, (h c Cert.ReferenceIdeal.main_arg0).trans k.1, (h c Cert.ReferenceIdeal.main_arg1).trans k.2.1,
      (h c Cert.ReferenceIdeal.main_arg2).trans k.2.2.1, (h c Cert.ReferenceIdeal.main_arg3).trans k.2.2.2.1, (h c Cert.ReferenceIdeal.main_arg4).trans k.2.2.2.2.1,
      (h c Cert.ReferenceIdeal.main_arg5).trans k.2.2.2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
